-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S3x64x64 .f32) (main_arg3 : FVec F S3x64 .f32) (main_arg4 : FVec F S3x64x64 .f32) (main_arg5 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x100000x64 : Shape := ⟨3, ![1, 100000, 64]⟩
abbrev S3x100000x64 : Shape := ⟨3, ![3, 100000, 64]⟩
abbrev S3x5000x64 : Shape := ⟨3, ![3, 5000, 64]⟩
abbrev S5000x64 : Shape := ⟨2, ![5000, 64]⟩
abbrev S1x5000x64 : Shape := ⟨3, ![1, 5000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 178
  | .vmem => 10
  | .smem => 0
  | _ => 0

abbrev hbmTy0_0 (i : Nat) : BufTy := match i % 128 with
  | 0 => ⟨S100000x64, .f32⟩
  | 1 => ⟨S2x1600000, .i32⟩
  | 2 => ⟨S3x64x64, .f32⟩
  | 3 => ⟨S3x64, .f32⟩
  | 4 => ⟨S3x64x64, .f32⟩
  | 5 => ⟨S3x64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .f32⟩
  | 47 => ⟨S100000, .f32⟩
  | 48 => ⟨S100000, .i1⟩
  | 49 => ⟨S_, .f32⟩
  | 50 => ⟨S100000, .f32⟩
  | 51 => ⟨S100000, .i1⟩
  | 52 => ⟨S_, .f32⟩
  | 53 => ⟨S_, .f32⟩
  | 54 => ⟨S100000, .f32⟩
  | 55 => ⟨S100000, .f32⟩
  | 56 => ⟨S_, .f32⟩
  | 57 => ⟨S100000, .f32⟩
  | 58 => ⟨S100000, .f32⟩
  | 59 => ⟨S_, .f32⟩
  | 60 => ⟨S_, .f32⟩
  | 61 => ⟨S100000, .f32⟩
  | 62 => ⟨S100000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S1600000x1, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x64, .f32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S1600000x1, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x64, .f32⟩

abbrev hbmTy0_1 (i : Nat) : BufTy := match i % 128 with
  | 0 => ⟨S1600000, .i32⟩
  | 1 => ⟨S1600000x1, .i32⟩
  | 2 => ⟨S1600000x64, .f32⟩
  | 3 => ⟨S1600000x64, .f32⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S1600000x1, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .f32⟩
  | 19 => ⟨S1600000x64, .f32⟩
  | 20 => ⟨S1600000x64, .f32⟩
  | 21 => ⟨S_, .f32⟩
  | 22 => ⟨S100000x64, .f32⟩
  | 23 => ⟨S1600000x1, .i32⟩
  | 24 => ⟨S100000x64, .f32⟩
  | 25 => ⟨S1600000x1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S1600000x64, .f32⟩
  | 36 => ⟨S1600000x64, .f32⟩
  | 37 => ⟨S_, .f32⟩
  | 38 => ⟨S100000x64, .f32⟩
  | 39 => ⟨S1600000x1, .i32⟩
  | 40 => ⟨S100000x64, .f32⟩
  | 41 => ⟨S1x100000x64, .f32⟩
  | 42 => ⟨S1x100000x64, .f32⟩
  | 43 => ⟨S1x100000x64, .f32⟩
  | 44 => ⟨S3x100000x64, .f32⟩
  | 45 => ⟨S1x100000x64, .f32⟩
  | 46 => ⟨S1x100000x64, .f32⟩
  | 47 => ⟨S1x100000x64, .f32⟩
  | 48 => ⟨S3x100000x64, .f32⟩
  | 49 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S3x5000x64, .f32⟩
  | .local _ .vmem, ⟨1, _⟩ => ⟨S3x5000x64, .f32⟩
  | .local _ .vmem, ⟨2, _⟩ => ⟨S3x5000x64, .f32⟩
  | .local _ .vmem, ⟨3, _⟩ => ⟨S3x5000x64, .f32⟩
  | .local _ .vmem, ⟨4, _⟩ => ⟨S3x64x64, .f32⟩
  | .local _ .vmem, ⟨5, _⟩ => ⟨S3x64, .f32⟩
  | .local _ .vmem, ⟨6, _⟩ => ⟨S3x64x64, .f32⟩
  | .local _ .vmem, ⟨7, _⟩ => ⟨S3x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_7 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_v27 : Ref sig .tc := ⟨.hbm, 48, rfl⟩
abbrev main_cst_9 : Ref sig .tc := ⟨.hbm, 49, rfl⟩
abbrev main_v28 : Ref sig .tc := ⟨.hbm, 50, rfl⟩
abbrev main_v29 : Ref sig .tc := ⟨.hbm, 51, rfl⟩
abbrev main_cst_10 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_cst_12 : Ref sig .tc := ⟨.hbm, 59, rfl⟩
abbrev main_call3_v0 : Ref sig .tc := ⟨.hbm, 60, rfl⟩
abbrev main_call3_v1 : Ref sig .tc := ⟨.hbm, 61, rfl⟩
abbrev main_v33 : Ref sig .tc := ⟨.hbm, 62, rfl⟩
abbrev main_c_13 : Ref sig .tc := ⟨.hbm, 63, rfl⟩
abbrev main_v34 : Ref sig .tc := ⟨.hbm, 64, rfl⟩
abbrev main_v35 : Ref sig .tc := ⟨.hbm, 65, rfl⟩
abbrev main_c_14 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_15 : Ref sig .tc := ⟨.hbm, 74, rfl⟩
abbrev main_v43 : Ref sig .tc := ⟨.hbm, 75, rfl⟩
abbrev main_v44 : Ref sig .tc := ⟨.hbm, 76, rfl⟩
abbrev main_c_16 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_17 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_18 : Ref sig .tc := ⟨.hbm, 90, rfl⟩
abbrev main_v56 : Ref sig .tc := ⟨.hbm, 91, rfl⟩
abbrev main_v57 : Ref sig .tc := ⟨.hbm, 92, rfl⟩
abbrev main_c_19 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_20 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_21 : Ref sig .tc := ⟨.hbm, 106, rfl⟩
abbrev main_v69 : Ref sig .tc := ⟨.hbm, 107, rfl⟩
abbrev main_v70 : Ref sig .tc := ⟨.hbm, 108, rfl⟩
abbrev main_c_22 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_23 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_24 : Ref sig .tc := ⟨.hbm, 122, rfl⟩
abbrev main_v82 : Ref sig .tc := ⟨.hbm, 123, rfl⟩
abbrev main_v83 : Ref sig .tc := ⟨.hbm, 124, rfl⟩
abbrev main_c_25 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_26 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_27 : Ref sig .tc := ⟨.hbm, 138, rfl⟩
abbrev main_v95 : Ref sig .tc := ⟨.hbm, 139, rfl⟩
abbrev main_v96 : Ref sig .tc := ⟨.hbm, 140, rfl⟩
abbrev main_c_28 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_29 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_30 : Ref sig .tc := ⟨.hbm, 154, rfl⟩
abbrev main_v108 : Ref sig .tc := ⟨.hbm, 155, rfl⟩
abbrev main_v109 : Ref sig .tc := ⟨.hbm, 156, rfl⟩
abbrev main_c_31 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_32 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  inb_S3x5000x64_S1x5000x64_0_0_0 : ∀ a, (![0, 0, 0] : Fin 3 → Nat) a + S1x5000x64.size a ≤ S3x5000x64.size a
  h_S1x5000x64 : 0 < S1x5000x64.numel
  shapeCasts_S1x5000x64_S5000x64 : S1x5000x64.ShapeCasts S5000x64
  bitsLt_bf16_f32 : FTy.bits .bf16 < FTy.bits .f32
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  transposes_S64x64_p1_0_S64x64 : S64x64.Transposes [1, 0] S64x64
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S5000x64 : S1x64.Broadcasts S5000x64
  inb_S3x5000x64_S1x5000x64_1_0_0 : ∀ a, (![1, 0, 0] : Fin 3 → Nat) a + S1x5000x64.size a ≤ S3x5000x64.size a
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x5000x64_S1x5000x64_2_0_0 : ∀ a, (![2, 0, 0] : Fin 3 → Nat) a + S1x5000x64.size a ≤ S3x5000x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x5000x64.size a ≤ S3x100000x64.size a
  hwx0_0 : ∀ i : grid0.Coords, EltTy.bits .f32 = 32 ∨ (Rect.block (s := S3x100000x64) S3x5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x5000x64.size a ≤ S3x100000x64.size a
  hwx0_1 : ∀ i : grid0.Coords, EltTy.bits .f32 = 32 ∨ (Rect.block (s := S3x100000x64) S3x5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .f32 = 32 ∨ (Rect.block (s := S3x64x64) S3x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x64.size a ≤ S3x64x64.size a
  hwx0_4 : ∀ i : grid0.Coords, EltTy.bits .f32 = 32 ∨ (Rect.block (s := S3x64x64) S3x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v123) S3x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v127) S3x5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v128) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S3x64x64 : Shape := ⟨3, ![3, 64, 64]⟩
abbrev S3x64 : Shape := ⟨2, ![3, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 246
  | .vmem => 0
  | .smem => 0
  | _ => 0

abbrev hbmTy0_0 (i : Nat) : BufTy := match i % 128 with
  | 0 => ⟨S100000x64, .f32⟩
  | 1 => ⟨S2x1600000, .i32⟩
  | 2 => ⟨S3x64x64, .f32⟩
  | 3 => ⟨S3x64, .f32⟩
  | 4 => ⟨S3x64x64, .f32⟩
  | 5 => ⟨S3x64, .f32⟩
  | 6 => ⟨S1x1600000, .i32⟩
  | 7 => ⟨S1600000, .i32⟩
  | 8 => ⟨S1x1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .f32⟩
  | 47 => ⟨S100000, .f32⟩
  | 48 => ⟨S100000, .i1⟩
  | 49 => ⟨S_, .f32⟩
  | 50 => ⟨S100000, .f32⟩
  | 51 => ⟨S100000, .i1⟩
  | 52 => ⟨S_, .f32⟩
  | 53 => ⟨S_, .f32⟩
  | 54 => ⟨S100000, .f32⟩
  | 55 => ⟨S100000, .f32⟩
  | 56 => ⟨S_, .f32⟩
  | 57 => ⟨S100000, .f32⟩
  | 58 => ⟨S100000, .f32⟩
  | 59 => ⟨S_, .f32⟩
  | 60 => ⟨S_, .f32⟩
  | 61 => ⟨S100000, .f32⟩
  | 62 => ⟨S100000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S1600000x64, .f32⟩
  | 84 => ⟨S1600000x64, .f32⟩
  | 85 => ⟨S_, .f32⟩
  | 86 => ⟨S100000x64, .f32⟩
  | 87 => ⟨S1600000x1, .i32⟩
  | 88 => ⟨S100000x64, .f32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S1x64x64, .f32⟩
  | 106 => ⟨S64x64, .f32⟩
  | 107 => ⟨S64x64, .f32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S1x64x64, .f32⟩
  | 115 => ⟨S64x64, .f32⟩
  | 116 => ⟨S64x64, .f32⟩
  | 117 => ⟨S100000x64, .f32⟩
  | 118 => ⟨S1x64, .f32⟩
  | 119 => ⟨S64, .f32⟩
  | 120 => ⟨S1x64, .f32⟩
  | 121 => ⟨S100000x64, .f32⟩
  | 122 => ⟨S100000x64, .f32⟩
  | 123 => ⟨S1600000x1, .f32⟩
  | 124 => ⟨S_, .i32⟩
  | 125 => ⟨S1600000, .i32⟩
  | 126 => ⟨S1600000, .i1⟩
  | 127 => ⟨S_, .i32⟩
  | _ => ⟨S100000x64, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x64, .f32⟩
  | 5 => ⟨S1600000x64, .f32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S1600000x1, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S1600000x64, .f32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S1x64x64, .f32⟩
  | 28 => ⟨S64x64, .f32⟩
  | 29 => ⟨S64x64, .f32⟩
  | 30 => ⟨S100000x64, .f32⟩
  | 31 => ⟨S1x64, .f32⟩
  | 32 => ⟨S64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S1x64x64, .f32⟩
  | 41 => ⟨S64x64, .f32⟩
  | 42 => ⟨S64x64, .f32⟩
  | 43 => ⟨S100000x64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S100000x64, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S1600000x1, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S1600000x64, .f32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S1x64x64, .f32⟩
  | 86 => ⟨S64x64, .f32⟩
  | 87 => ⟨S64x64, .f32⟩
  | 88 => ⟨S100000x64, .f32⟩
  | 89 => ⟨S1x64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S1x64x64, .f32⟩
  | 99 => ⟨S64x64, .f32⟩
  | 100 => ⟨S64x64, .f32⟩
  | 101 => ⟨S100000x64, .f32⟩
  | 102 => ⟨S1x64, .f32⟩
  | 103 => ⟨S64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_7 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_v27 : Ref sig .tc := ⟨.hbm, 48, rfl⟩
abbrev main_cst_9 : Ref sig .tc := ⟨.hbm, 49, rfl⟩
abbrev main_v28 : Ref sig .tc := ⟨.hbm, 50, rfl⟩
abbrev main_v29 : Ref sig .tc := ⟨.hbm, 51, rfl⟩
abbrev main_cst_10 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_cst_11 : Ref sig .tc := ⟨.hbm, 56, rfl⟩
abbrev main_v31 : Ref sig .tc := ⟨.hbm, 57, rfl⟩
abbrev main_v32 : Ref sig .tc := ⟨.hbm, 58, rfl⟩
abbrev main_cst_12 : Ref sig .tc := ⟨.hbm, 59, rfl⟩
abbrev main_call3_v0 : Ref sig .tc := ⟨.hbm, 60, rfl⟩
abbrev main_call3_v1 : Ref sig .tc := ⟨.hbm, 61, rfl⟩
abbrev main_v33 : Ref sig .tc := ⟨.hbm, 62, rfl⟩
abbrev main_c_13 : Ref sig .tc := ⟨.hbm, 63, rfl⟩
abbrev main_v34 : Ref sig .tc := ⟨.hbm, 64, rfl⟩
abbrev main_v35 : Ref sig .tc := ⟨.hbm, 65, rfl⟩
abbrev main_c_14 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_15 : Ref sig .tc := ⟨.hbm, 74, rfl⟩
abbrev main_v43 : Ref sig .tc := ⟨.hbm, 75, rfl⟩
abbrev main_v44 : Ref sig .tc := ⟨.hbm, 76, rfl⟩
abbrev main_c_16 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_17 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_18 : Ref sig .tc := ⟨.hbm, 90, rfl⟩
abbrev main_v56 : Ref sig .tc := ⟨.hbm, 91, rfl⟩
abbrev main_v57 : Ref sig .tc := ⟨.hbm, 92, rfl⟩
abbrev main_c_19 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_20 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_21 : Ref sig .tc := ⟨.hbm, 124, rfl⟩
abbrev main_v87 : Ref sig .tc := ⟨.hbm, 125, rfl⟩
abbrev main_v88 : Ref sig .tc := ⟨.hbm, 126, rfl⟩
abbrev main_c_22 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_23 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_24 : Ref sig .tc := ⟨.hbm, 140, rfl⟩
abbrev main_v100 : Ref sig .tc := ⟨.hbm, 141, rfl⟩
abbrev main_v101 : Ref sig .tc := ⟨.hbm, 142, rfl⟩
abbrev main_c_25 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_26 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_27 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_28 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_c_29 : Ref sig .tc := ⟨.hbm, 182, rfl⟩
abbrev main_v137 : Ref sig .tc := ⟨.hbm, 183, rfl⟩
abbrev main_v138 : Ref sig .tc := ⟨.hbm, 184, rfl⟩
abbrev main_c_30 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_31 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_c_32 : Ref sig .tc := ⟨.hbm, 198, rfl⟩
abbrev main_v150 : Ref sig .tc := ⟨.hbm, 199, rfl⟩
abbrev main_v151 : Ref sig .tc := ⟨.hbm, 200, rfl⟩
abbrev main_c_33 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_34 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_cst_35 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_36 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_37 : Ref sig .tc := ⟨.hbm, 239, rfl⟩
abbrev main_v186 : Ref sig .tc := ⟨.hbm, 240, rfl⟩
abbrev main_v187 : Ref sig .tc := ⟨.hbm, 241, rfl⟩
abbrev main_cst_38 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelEntry.lean ====
/-
  What the one region of the program finds when it is entered, and what a run of the region says about the six
  argument arrays.

  The program is a line of host operations (the degree norms, the per-edge weights and the six sparse propagations
  Y_0, Y_1, Y_2 and Yt_0, Yt_1, Yt_2, the two triples each stacked along a new leading axis) followed by one region
  over a grid of twenty points.  The region stages seven windows: the stack of the Y_i and the stack of the Yt_i in
  blocks of 5000 rows, the two weight arrays and the two bias arrays whole, and the result in blocks of 5000 rows.
  None of the host operations writes an argument array, so the region finds all six as they were launched; two of
  them (the node features and the edge list) are staged by no window and are therefore untouched by the region.
-/
import proofs.«108343_j62723702391592_1_alg».proof.Proof.Gen.Kernel.Launch
import proofs.«108343_j62723702391592_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line before the region -/

/-- The host operations before the region, as the nine stretches the program's text is cut into (a stretch ends
    where an outlined function is called). -/
abbrev stretches : List (List (HloOp τ sig (Elt F))) :=
  [hostOps0, hostOps0_1, hostOps0_2, hostOps0_3, hostOps0_4, hostOps0_5, hostOps0_6, hostOps0_7, hostOps0_8]

/-- The contents of core `c`'s buffers when the region is entered: the launch memory after every host operation. -/
abbrev atEntry (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub⟩

/-- No host operation allocates a buffer of its own. -/
theorem stretches_fresh : (stretches (F := F)).Forall fun ops => ops.Forall fun op => op.fresh = ∅ := by
  simp only [List.Forall]; repeat' constructor

/-- The program is its host operations, in order, and then the region. -/
theorem main_is (c : Dev nD) : main (F := F) c
    = Pipeline.chain ((stretches (F := F)).map StableHlo.seq ++ [Prog.lift (.customCall (Pipeline.entry 0) ())]) :=
  (main_chain c).trans rfl

/-- The program up to its region: the host operations run, and the region is entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main stretches stretches_sub stretches_fresh main_is

/-! ## The argument arrays at the region's entry -/

/-- A buffer that no host operation writes is found as launched. -/
macro "unwritten" : tactic =>
  `(tactic| (
    refine StableHlo.after_of_forall_not_mem _ _ (List.forall_iff_forall_mem.mp ?_)
    simp only [hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

theorem atEntry_arg0 (c : Dev nD) : atEntry m c main_arg0 = m ((c : Thread nD τ).loc main_arg0) := by
  show StableHlo.after _ _ (Proc.devRef .tc main_arg0) = _; unwritten
theorem atEntry_arg1 (c : Dev nD) : atEntry m c main_arg1 = m ((c : Thread nD τ).loc main_arg1) := by
  show StableHlo.after _ _ (Proc.devRef .tc main_arg1) = _; unwritten
theorem atEntry_arg2 (c : Dev nD) : atEntry m c main_arg2 = m ((c : Thread nD τ).loc main_arg2) := by
  show StableHlo.after _ _ (Proc.devRef .tc main_arg2) = _; unwritten
theorem atEntry_arg3 (c : Dev nD) : atEntry m c main_arg3 = m ((c : Thread nD τ).loc main_arg3) := by
  show StableHlo.after _ _ (Proc.devRef .tc main_arg3) = _; unwritten
theorem atEntry_arg4 (c : Dev nD) : atEntry m c main_arg4 = m ((c : Thread nD τ).loc main_arg4) := by
  show StableHlo.after _ _ (Proc.devRef .tc main_arg4) = _; unwritten
theorem atEntry_arg5 (c : Dev nD) : atEntry m c main_arg5 = m ((c : Thread nD τ).loc main_arg5) := by
  show StableHlo.after _ _ (Proc.devRef .tc main_arg5) = _; unwritten

/-! ## The windows' blocks -/

/-- Window `w`'s block at grid point `t`: the part of the window's array, as the region finds it, that the point
    stages (for the two stacks, rows 5000 t … 5000 t + 4999 of each of the three layers; for the weights and the
    biases, the whole array). -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-- An input window whose staging buffer the body leaves as it found it holds its block at every point, whether the
    point fetched it or not: a point that does not fetch has the same block index as the point before it (the two
    stacks are fetched at every point, the weights and the biases at the first point only).  Stated window by window,
    since a block's index type is read off the window's literal shape. -/
theorem input0_holds_block {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem input1_holds_block {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem input2_holds_block {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem input3_holds_block {c : Dev nD} (dat : Dat τ (Elt F) Unit ℕ (UR sig nD τ) ℕ cfg0 c)
    (hA : dat.A 3 = atEntry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
theorem input4_holds_block {c : Dev nD} (dat : Dat τ (Elt F) Unit ℕ (UR sig nD τ) ℕ cfg0 c)
    (hA : dat.A 4 = atEntry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)
theorem input5_holds_block {c : Dev nD} (dat : Dat τ (Elt F) Unit ℕ (UR sig nD τ) ℕ cfg0 c)
    (hA : dat.A 5 = atEntry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)

/-! ## The argument arrays after a run of the region -/

/-- From a run of the program that ends with every array of the region at what its proof data computes and every
    other buffer as the region found it, the six argument arrays end as launched: the four the region stages are
    inputs, read and never written back, and the other two are no window's. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).1 2).trans (((dats 0 c).arrAt_in 2 rfl _).trans ((hA c 2).trans (atEntry_arg2 m c))),
      ((h c).1 3).trans (((dats 0 c).arrAt_in 3 rfl _).trans ((hA c 3).trans (atEntry_arg3 m c))),
      ((h c).1 4).trans (((dats 0 c).arrAt_in 4 rfl _).trans ((hA c 4).trans (atEntry_arg4 m c))),
      ((h c).1 5).trans (((dats 0 c).arrAt_in 5 rfl _).trans ((hA c 5).trans (atEntry_arg5 m c)))⟩) h

end Cert.Kernel.Hand

end
-- ==== Proof.KernelBody.lean ====
/-
  The kernel body on its seven staging buffers.

  The body reads, layer by layer (i = 0, 1, 2), the 5000 x 64 layer i of the block of the stack Y and of the stack Yt,
  the 64 x 64 layer i of each weight array and the row i of each bias array; it forms
      s  = ((0 + (Y_0 W_0^T + b_0) * 1) + (Y_1 W_1^T + b_1) * 1/2) + (Y_2 W_2^T + b_2) * 1/4
  for the first weight and bias arrays, the same sum s' over Yt with the second ones, and stores
      1/2 * s + 1/2 * s'
  over the whole 5000 x 64 output buffer.  It leaves the six input buffers as it found them.
-/
import proofs.«108343_j62723702391592_1_alg».proof.Proof.Gen.Kernel.Launch
import proofs.«108343_j62723702391592_1_alg».proof.Proof.Gen.Kernel.Skeleton
import proofs.«108343_j62723702391592_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The rectangles the body reads and writes through -/

/-- Layer `i` of a 3 x 5000 x 64 buffer. -/
abbrev layer0 : Rect S3x5000x64 := Rect.unit (s := S3x5000x64) ![0, 0, 0] S1x5000x64.size inb_S3x5000x64_S1x5000x64_0_0_0
abbrev layer1 : Rect S3x5000x64 := Rect.unit (s := S3x5000x64) ![1, 0, 0] S1x5000x64.size inb_S3x5000x64_S1x5000x64_1_0_0
abbrev layer2 : Rect S3x5000x64 := Rect.unit (s := S3x5000x64) ![2, 0, 0] S1x5000x64.size inb_S3x5000x64_S1x5000x64_2_0_0
/-- Layer `i` of a 3 x 64 x 64 weight buffer. -/
abbrev weight0 : Rect S3x64x64 := Rect.unit (s := S3x64x64) ![0, 0, 0] S1x64x64.size inb_S3x64x64_S1x64x64_0_0_0
abbrev weight1 : Rect S3x64x64 := Rect.unit (s := S3x64x64) ![1, 0, 0] S1x64x64.size inb_S3x64x64_S1x64x64_1_0_0
abbrev weight2 : Rect S3x64x64 := Rect.unit (s := S3x64x64) ![2, 0, 0] S1x64x64.size inb_S3x64x64_S1x64x64_2_0_0
/-- Row `i` of a 3 x 64 bias buffer. -/
abbrev bias0 : Rect S3x64 := Rect.unit (s := S3x64) ![0, 0] S1x64.size inb_S3x64_S1x64_0_0
abbrev bias1 : Rect S3x64 := Rect.unit (s := S3x64) ![1, 0] S1x64.size inb_S3x64_S1x64_1_0
abbrev bias2 : Rect S3x64 := Rect.unit (s := S3x64) ![2, 0] S1x64.size inb_S3x64_S1x64_2_0
/-- The whole 5000 x 64 output buffer. -/
abbrev wholeOut : Rect S5000x64 := Rect.unit (s := S5000x64) ![0, 0] S5000x64.size inb_S5000x64_S5000x64_0_0

/-! ## What the body stores -/

/-- The output buffer after the body, from the six input buffers' contents: the one store's value, the mix of the
    two weighted sums of the three projected layers, over the whole buffer. -/
def mixed (y yt : Vec F S3x5000x64 .f32) (w : Vec F S3x64x64 .f32) (b : Vec F S3x64 .f32)
    (w' : Vec F S3x64x64 .f32) (b' : Vec F S3x64 .f32) : Vec F S5000x64 .f32 :=
  View.canon [⟨wholeOut,
    k0_pay1
      (k0_pay4 (k0_pay2 (View.ld y layer0) (View.ld w weight0) (View.ld b bias0))
        (View.ld y layer1) (View.ld w weight1) (View.ld b bias1))
      (k0_pay5 (k0_pay3 (View.ld yt layer0) (View.ld w' weight0) (View.ld b' bias0))
        (View.ld yt layer1) (View.ld w' weight1) (View.ld b' bias1))
      (k0_pay6 (View.ld y layer2)) (k0_pay7 (View.ld yt layer2))
      (View.ld w weight2) (View.ld w' weight2) (View.ld b bias2) (View.ld b' bias2)⟩]

/-- The one store covers the output buffer. -/
theorem store_covers (p0 : Vec F S5000x64 .f32) (y : S5000x64.Idx) :
    ∃ pc ∈ ([⟨wholeOut, p0⟩] : List (View.Piece (Elt F) S5000x64 .f32)), y ∈ pc.1.set :=
  View.cover_of_tiled [⟨wholeOut, p0⟩] S5000x64.size (by rfl) y

/-! ## The body's triple -/

set_option maxHeartbeats 4000000 in
/-- The body, run on whole staging buffers with the six inputs at contents `y yt w b w' b'` and the output at anything,
    ends with the inputs as they were and the output at `mixed` of them. -/
theorem body_runs (c : Dev nD) (E : Set ℕ) (i : grid0.Coords)
    (arg1 : Memref sig .tc .vmem S3x5000x64 .f32) (harg1 : arg1.IsWhole)
    (arg2 : Memref sig .tc .vmem S3x5000x64 .f32) (harg2 : arg2.IsWhole)
    (arg3 : Memref sig .tc .vmem S3x64x64 .f32) (harg3 : arg3.IsWhole)
    (arg4 : Memref sig .tc .vmem S3x64 .f32) (harg4 : arg4.IsWhole)
    (arg5 : Memref sig .tc .vmem S3x64x64 .f32) (harg5 : arg5.IsWhole)
    (arg6 : Memref sig .tc .vmem S3x64 .f32) (harg6 : arg6.IsWhole)
    (arg7 : Memref sig .tc .vmem S5000x64 .f32) (harg7 : arg7.IsWhole)
    (y yt : Vec F S3x5000x64 .f32) (w : Vec F S3x64x64 .f32) (b : Vec F S3x64 .f32)
    (w' : Vec F S3x64x64 .f32) (b' : Vec F S3x64 .f32) (K : PUnit → sProp 𝕄) :
    iprop(owns (c : Thread nD τ) arg1 fullShare y ∗ owns (c : Thread nD τ) arg2 fullShare yt
        ∗ owns (c : Thread nD τ) arg3 fullShare w ∗ owns (c : Thread nD τ) arg4 fullShare b
        ∗ owns (c : Thread nD τ) arg5 fullShare w' ∗ owns (c : Thread nD τ) arg6 fullShare b'
        ∗ (∃ d, owns (c : Thread nD τ) arg7 fullShare d)
        ∗ (iprop(owns (c : Thread nD τ) arg1 fullShare y ∗ owns (c : Thread nD τ) arg2 fullShare yt
            ∗ owns (c : Thread nD τ) arg3 fullShare w ∗ owns (c : Thread nD τ) arg4 fullShare b
            ∗ owns (c : Thread nD τ) arg5 fullShare w' ∗ owns (c : Thread nD τ) arg6 fullShare b'
            ∗ owns (c : Thread nD τ) arg7 fullShare (mixed y yt w b w' b')) -∗ K ⟨⟩))
      ⊢ wp frame (wpE (defs₀ (F := F)) Variants.none c none) E
          (cc0__finalize_kernel i arg1 harg1 arg2 harg2 arg3 harg3 arg4 harg4 arg5 harg5 arg6 harg6 arg7 harg7) K := by
  simp only [cc0__finalize_kernel_eq_skeleton]; unfold cc0__finalize_kernel_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (store_covers _)

end Cert.Kernel.Hand

end
-- ==== Proof.KernelRun.lean ====
/-
  The run of the program and its frame.

  The proof data of the one region: each window's array is what the region finds; after the body at grid point t each
  of the six input buffers holds its block at t, and the output buffer holds the mix of the two weighted sums computed
  from those six blocks.  With the body's triple at every point this gives the run of the whole program, every array
  of the region ending at what the proof data computes, and from it the frame: the program terminates without a fault
  and the six argument arrays end as they were launched.
-/
import proofs.«108343_j62723702391592_1_alg».proof.Proof.KernelEntry
import proofs.«108343_j62723702391592_1_alg».proof.Proof.KernelBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output buffer holds after the body at point `t`: the mix computed from the six blocks at `t`. -/
def mixedAt (c : Dev nD) (t : Fin cfg0.N) : Vec F S5000x64 .f32 :=
  mixed (blockAt m c 0 t) (blockAt m c 1 t) (blockAt m c 2 t) (blockAt m c 3 t) (blockAt m c 4 t) (blockAt m c 5 t)

/-- The proof data of the region on core `c`. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => mixedAt m c t
  Φ _ := Pipeline.ΦA spec0 c
  q _ := fullShare
  owed _ := 0

theorem arrays_at_entry (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = mixedAt m c t := by dsimp only [dats]

/-- Each input buffer holds its block when the body starts at a point. -/
theorem before_0 (c : Dev nD) (t : Fin cfg0.N) (d) : (dats m 0 c).before 0 t d = blockAt m c 0 t :=
  input0_holds_block m (dats m 0 c) (arrays_at_entry m c 0) (after_0 m c) t d
theorem before_1 (c : Dev nD) (t : Fin cfg0.N) (d) : (dats m 0 c).before 1 t d = blockAt m c 1 t :=
  input1_holds_block m (dats m 0 c) (arrays_at_entry m c 1) (after_1 m c) t d
theorem before_2 (c : Dev nD) (t : Fin cfg0.N) (d) : (dats m 0 c).before 2 t d = blockAt m c 2 t :=
  input2_holds_block m (dats m 0 c) (arrays_at_entry m c 2) (after_2 m c) t d
theorem before_3 (c : Dev nD) (t : Fin cfg0.N) (d) : (dats m 0 c).before 3 t d = blockAt m c 3 t :=
  input3_holds_block m (dats m 0 c) (arrays_at_entry m c 3) (after_3 m c) t d
theorem before_4 (c : Dev nD) (t : Fin cfg0.N) (d) : (dats m 0 c).before 4 t d = blockAt m c 4 t :=
  input4_holds_block m (dats m 0 c) (arrays_at_entry m c 4) (after_4 m c) t d
theorem before_5 (c : Dev nD) (t : Fin cfg0.N) (d) : (dats m 0 c).before 5 t d = blockAt m c 5 t :=
  input5_holds_block m (dats m 0 c) (arrays_at_entry m c 5) (after_5 m c) t d

/-! ## The body at a generic grid point -/

/-- What the body is called with at point `t`: the region's invariant, and the seven current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: its six inputs hold their blocks, so the body's triple applies; the invariant passes
    through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of the program terminates, and every final state has each array of the region at what
    the proof data computes and every other buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := arrays_at_entry m)
    (hΦ := fun _ _ => rfl)

/-- The frame: the program terminates without a fault and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_kept m ρ (dats m) (arrays_at_entry m) (run_main m ρ)

end Cert.Kernel.Hand

end
-- ==== Proof.KernelIdealEntry.lean ====
/-
  What the one region of the program finds when it is entered, and what a run of the region says about the six
  argument arrays.

  The program is a line of host operations (the degree norms, the per-edge weights and the six sparse propagations
  Y_0, Y_1, Y_2 and Yt_0, Yt_1, Yt_2, the two triples each stacked along a new leading axis) followed by one region
  over a grid of twenty points.  The region stages seven windows: the stack of the Y_i and the stack of the Yt_i in
  blocks of 5000 rows, the two weight arrays and the two bias arrays whole, and the result in blocks of 5000 rows.
  None of the host operations writes an argument array, so the region finds all six as they were launched; two of
  them (the node features and the edge list) are staged by no window and are therefore untouched by the region.
-/
import proofs.«108343_j62723702391592_1_alg».proof.Proof.Gen.KernelIdeal.Launch
import proofs.«108343_j62723702391592_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line before the region -/

/-- The host operations before the region, as the nine stretches the program's text is cut into (a stretch ends
    where an outlined function is called). -/
abbrev stretches : List (List (HloOp τ sig (Elt F))) :=
  [hostOps0, hostOps0_1, hostOps0_2, hostOps0_3, hostOps0_4, hostOps0_5, hostOps0_6, hostOps0_7, hostOps0_8]

/-- The contents of core `c`'s buffers when the region is entered: the launch memory after every host operation. -/
abbrev atEntry (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub⟩

/-- No host operation allocates a buffer of its own. -/
theorem stretches_fresh : (stretches (F := F)).Forall fun ops => ops.Forall fun op => op.fresh = ∅ := by
  simp only [List.Forall]; repeat' constructor

/-- The program is its host operations, in order, and then the region. -/
theorem main_is (c : Dev nD) : main (F := F) c
    = Pipeline.chain ((stretches (F := F)).map StableHlo.seq ++ [Prog.lift (.customCall (Pipeline.entry 0) ())]) :=
  (main_chain c).trans rfl

/-- The program up to its region: the host operations run, and the region is entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main stretches stretches_sub stretches_fresh main_is

/-! ## The argument arrays at the region's entry -/

/-- A buffer that no host operation writes is found as launched. -/
macro "unwritten" : tactic =>
  `(tactic| (
    refine StableHlo.after_of_forall_not_mem _ _ (List.forall_iff_forall_mem.mp ?_)
    simp only [hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

theorem atEntry_arg0 (c : Dev nD) : atEntry m c main_arg0 = m ((c : Thread nD τ).loc main_arg0) := by
  show StableHlo.after _ _ (Proc.devRef .tc main_arg0) = _; unwritten
theorem atEntry_arg1 (c : Dev nD) : atEntry m c main_arg1 = m ((c : Thread nD τ).loc main_arg1) := by
  show StableHlo.after _ _ (Proc.devRef .tc main_arg1) = _; unwritten
theorem atEntry_arg2 (c : Dev nD) : atEntry m c main_arg2 = m ((c : Thread nD τ).loc main_arg2) := by
  show StableHlo.after _ _ (Proc.devRef .tc main_arg2) = _; unwritten
theorem atEntry_arg3 (c : Dev nD) : atEntry m c main_arg3 = m ((c : Thread nD τ).loc main_arg3) := by
  show StableHlo.after _ _ (Proc.devRef .tc main_arg3) = _; unwritten
theorem atEntry_arg4 (c : Dev nD) : atEntry m c main_arg4 = m ((c : Thread nD τ).loc main_arg4) := by
  show StableHlo.after _ _ (Proc.devRef .tc main_arg4) = _; unwritten
theorem atEntry_arg5 (c : Dev nD) : atEntry m c main_arg5 = m ((c : Thread nD τ).loc main_arg5) := by
  show StableHlo.after _ _ (Proc.devRef .tc main_arg5) = _; unwritten

/-! ## The windows' blocks -/

/-- Window `w`'s block at grid point `t`: the part of the window's array, as the region finds it, that the point
    stages (for the two stacks, rows 5000 t … 5000 t + 4999 of each of the three layers; for the weights and the
    biases, the whole array). -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-- An input window whose staging buffer the body leaves as it found it holds its block at every point, whether the
    point fetched it or not: a point that does not fetch has the same block index as the point before it (the two
    stacks are fetched at every point, the weights and the biases at the first point only).  Stated window by window,
    since a block's index type is read off the window's literal shape. -/
theorem input0_holds_block {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem input1_holds_block {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem input2_holds_block {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem input3_holds_block {c : Dev nD} (dat : Dat τ (Elt F) Unit ℕ (UR sig nD τ) ℕ cfg0 c)
    (hA : dat.A 3 = atEntry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
theorem input4_holds_block {c : Dev nD} (dat : Dat τ (Elt F) Unit ℕ (UR sig nD τ) ℕ cfg0 c)
    (hA : dat.A 4 = atEntry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)
theorem input5_holds_block {c : Dev nD} (dat : Dat τ (Elt F) Unit ℕ (UR sig nD τ) ℕ cfg0 c)
    (hA : dat.A 5 = atEntry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)

/-! ## The argument arrays after a run of the region -/

/-- From a run of the program that ends with every array of the region at what its proof data computes and every
    other buffer as the region found it, the six argument arrays end as launched: the four the region stages are
    inputs, read and never written back, and the other two are no window's. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).1 2).trans (((dats 0 c).arrAt_in 2 rfl _).trans ((hA c 2).trans (atEntry_arg2 m c))),
      ((h c).1 3).trans (((dats 0 c).arrAt_in 3 rfl _).trans ((hA c 3).trans (atEntry_arg3 m c))),
      ((h c).1 4).trans (((dats 0 c).arrAt_in 4 rfl _).trans ((hA c 4).trans (atEntry_arg4 m c))),
      ((h c).1 5).trans (((dats 0 c).arrAt_in 5 rfl _).trans ((hA c 5).trans (atEntry_arg5 m c)))⟩) h

end Cert.KernelIdeal.Hand

end
-- ==== Proof.KernelIdealBody.lean ====
/-
  The kernel body on its seven staging buffers.

  The body reads, layer by layer (i = 0, 1, 2), the 5000 x 64 layer i of the block of the stack Y and of the stack Yt,
  the 64 x 64 layer i of each weight array and the row i of each bias array; it forms
      s  = ((0 + (Y_0 W_0^T + b_0) * 1) + (Y_1 W_1^T + b_1) * 1/2) + (Y_2 W_2^T + b_2) * 1/4
  for the first weight and bias arrays, the same sum s' over Yt with the second ones, and stores
      1/2 * s + 1/2 * s'
  over the whole 5000 x 64 output buffer.  It leaves the six input buffers as it found them.
-/
import proofs.«108343_j62723702391592_1_alg».proof.Proof.Gen.KernelIdeal.Launch
import proofs.«108343_j62723702391592_1_alg».proof.Proof.Gen.KernelIdeal.Skeleton
import proofs.«108343_j62723702391592_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The rectangles the body reads and writes through -/

/-- Layer `i` of a 3 x 5000 x 64 buffer. -/
abbrev layer0 : Rect S3x5000x64 := Rect.unit (s := S3x5000x64) ![0, 0, 0] S1x5000x64.size inb_S3x5000x64_S1x5000x64_0_0_0
abbrev layer1 : Rect S3x5000x64 := Rect.unit (s := S3x5000x64) ![1, 0, 0] S1x5000x64.size inb_S3x5000x64_S1x5000x64_1_0_0
abbrev layer2 : Rect S3x5000x64 := Rect.unit (s := S3x5000x64) ![2, 0, 0] S1x5000x64.size inb_S3x5000x64_S1x5000x64_2_0_0
/-- Layer `i` of a 3 x 64 x 64 weight buffer. -/
abbrev weight0 : Rect S3x64x64 := Rect.unit (s := S3x64x64) ![0, 0, 0] S1x64x64.size inb_S3x64x64_S1x64x64_0_0_0
abbrev weight1 : Rect S3x64x64 := Rect.unit (s := S3x64x64) ![1, 0, 0] S1x64x64.size inb_S3x64x64_S1x64x64_1_0_0
abbrev weight2 : Rect S3x64x64 := Rect.unit (s := S3x64x64) ![2, 0, 0] S1x64x64.size inb_S3x64x64_S1x64x64_2_0_0
/-- Row `i` of a 3 x 64 bias buffer. -/
abbrev bias0 : Rect S3x64 := Rect.unit (s := S3x64) ![0, 0] S1x64.size inb_S3x64_S1x64_0_0
abbrev bias1 : Rect S3x64 := Rect.unit (s := S3x64) ![1, 0] S1x64.size inb_S3x64_S1x64_1_0
abbrev bias2 : Rect S3x64 := Rect.unit (s := S3x64) ![2, 0] S1x64.size inb_S3x64_S1x64_2_0
/-- The whole 5000 x 64 output buffer. -/
abbrev wholeOut : Rect S5000x64 := Rect.unit (s := S5000x64) ![0, 0] S5000x64.size inb_S5000x64_S5000x64_0_0

/-! ## What the body stores -/

/-- The output buffer after the body, from the six input buffers' contents: the one store's value, the mix of the
    two weighted sums of the three projected layers, over the whole buffer. -/
def mixed (y yt : Vec F S3x5000x64 .f32) (w : Vec F S3x64x64 .f32) (b : Vec F S3x64 .f32)
    (w' : Vec F S3x64x64 .f32) (b' : Vec F S3x64 .f32) : Vec F S5000x64 .f32 :=
  View.canon [⟨wholeOut,
    k0_pay1
      (k0_pay4 (k0_pay2 (View.ld y layer0) (View.ld w weight0) (View.ld b bias0))
        (View.ld y layer1) (View.ld w weight1) (View.ld b bias1))
      (k0_pay5 (k0_pay3 (View.ld yt layer0) (View.ld w' weight0) (View.ld b' bias0))
        (View.ld yt layer1) (View.ld w' weight1) (View.ld b' bias1))
      (k0_pay6 (View.ld y layer2)) (k0_pay7 (View.ld yt layer2))
      (View.ld w weight2) (View.ld w' weight2) (View.ld b bias2) (View.ld b' bias2)⟩]

/-- The one store covers the output buffer. -/
theorem store_covers (p0 : Vec F S5000x64 .f32) (y : S5000x64.Idx) :
    ∃ pc ∈ ([⟨wholeOut, p0⟩] : List (View.Piece (Elt F) S5000x64 .f32)), y ∈ pc.1.set :=
  View.cover_of_tiled [⟨wholeOut, p0⟩] S5000x64.size (by rfl) y

/-! ## The body's triple -/

set_option maxHeartbeats 4000000 in
/-- The body, run on whole staging buffers with the six inputs at contents `y yt w b w' b'` and the output at anything,
    ends with the inputs as they were and the output at `mixed` of them. -/
theorem body_runs (c : Dev nD) (E : Set ℕ) (i : grid0.Coords)
    (arg1 : Memref sig .tc .vmem S3x5000x64 .f32) (harg1 : arg1.IsWhole)
    (arg2 : Memref sig .tc .vmem S3x5000x64 .f32) (harg2 : arg2.IsWhole)
    (arg3 : Memref sig .tc .vmem S3x64x64 .f32) (harg3 : arg3.IsWhole)
    (arg4 : Memref sig .tc .vmem S3x64 .f32) (harg4 : arg4.IsWhole)
    (arg5 : Memref sig .tc .vmem S3x64x64 .f32) (harg5 : arg5.IsWhole)
    (arg6 : Memref sig .tc .vmem S3x64 .f32) (harg6 : arg6.IsWhole)
    (arg7 : Memref sig .tc .vmem S5000x64 .f32) (harg7 : arg7.IsWhole)
    (y yt : Vec F S3x5000x64 .f32) (w : Vec F S3x64x64 .f32) (b : Vec F S3x64 .f32)
    (w' : Vec F S3x64x64 .f32) (b' : Vec F S3x64 .f32) (K : PUnit → sProp 𝕄) :
    iprop(owns (c : Thread nD τ) arg1 fullShare y ∗ owns (c : Thread nD τ) arg2 fullShare yt
        ∗ owns (c : Thread nD τ) arg3 fullShare w ∗ owns (c : Thread nD τ) arg4 fullShare b
        ∗ owns (c : Thread nD τ) arg5 fullShare w' ∗ owns (c : Thread nD τ) arg6 fullShare b'
        ∗ (∃ d, owns (c : Thread nD τ) arg7 fullShare d)
        ∗ (iprop(owns (c : Thread nD τ) arg1 fullShare y ∗ owns (c : Thread nD τ) arg2 fullShare yt
            ∗ owns (c : Thread nD τ) arg3 fullShare w ∗ owns (c : Thread nD τ) arg4 fullShare b
            ∗ owns (c : Thread nD τ) arg5 fullShare w' ∗ owns (c : Thread nD τ) arg6 fullShare b'
            ∗ owns (c : Thread nD τ) arg7 fullShare (mixed y yt w b w' b')) -∗ K ⟨⟩))
      ⊢ wp frame (wpE (defs₀ (F := F)) Variants.none c none) E
          (cc0__finalize_kernel i arg1 harg1 arg2 harg2 arg3 harg3 arg4 harg4 arg5 harg5 arg6 harg6 arg7 harg7) K := by
  simp only [cc0__finalize_kernel_eq_skeleton]; unfold cc0__finalize_kernel_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (store_covers _)

end Cert.KernelIdeal.Hand

end
-- ==== Proof.KernelIdealRun.lean ====
/-
  The run of the program and its frame.

  The proof data of the one region: each window's array is what the region finds; after the body at grid point t each
  of the six input buffers holds its block at t, and the output buffer holds the mix of the two weighted sums computed
  from those six blocks.  With the body's triple at every point this gives the run of the whole program, every array
  of the region ending at what the proof data computes, and from it the frame: the program terminates without a fault
  and the six argument arrays end as they were launched.
-/
import proofs.«108343_j62723702391592_1_alg».proof.Proof.KernelIdealEntry
import proofs.«108343_j62723702391592_1_alg».proof.Proof.KernelIdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output buffer holds after the body at point `t`: the mix computed from the six blocks at `t`. -/
def mixedAt (c : Dev nD) (t : Fin cfg0.N) : Vec F S5000x64 .f32 :=
  mixed (blockAt m c 0 t) (blockAt m c 1 t) (blockAt m c 2 t) (blockAt m c 3 t) (blockAt m c 4 t) (blockAt m c 5 t)

/-- The proof data of the region on core `c`. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => mixedAt m c t
  Φ _ := Pipeline.ΦA spec0 c
  q _ := fullShare
  owed _ := 0

theorem arrays_at_entry (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = mixedAt m c t := by dsimp only [dats]

/-- Each input buffer holds its block when the body starts at a point. -/
theorem before_0 (c : Dev nD) (t : Fin cfg0.N) (d) : (dats m 0 c).before 0 t d = blockAt m c 0 t :=
  input0_holds_block m (dats m 0 c) (arrays_at_entry m c 0) (after_0 m c) t d
theorem before_1 (c : Dev nD) (t : Fin cfg0.N) (d) : (dats m 0 c).before 1 t d = blockAt m c 1 t :=
  input1_holds_block m (dats m 0 c) (arrays_at_entry m c 1) (after_1 m c) t d
theorem before_2 (c : Dev nD) (t : Fin cfg0.N) (d) : (dats m 0 c).before 2 t d = blockAt m c 2 t :=
  input2_holds_block m (dats m 0 c) (arrays_at_entry m c 2) (after_2 m c) t d
theorem before_3 (c : Dev nD) (t : Fin cfg0.N) (d) : (dats m 0 c).before 3 t d = blockAt m c 3 t :=
  input3_holds_block m (dats m 0 c) (arrays_at_entry m c 3) (after_3 m c) t d
theorem before_4 (c : Dev nD) (t : Fin cfg0.N) (d) : (dats m 0 c).before 4 t d = blockAt m c 4 t :=
  input4_holds_block m (dats m 0 c) (arrays_at_entry m c 4) (after_4 m c) t d
theorem before_5 (c : Dev nD) (t : Fin cfg0.N) (d) : (dats m 0 c).before 5 t d = blockAt m c 5 t :=
  input5_holds_block m (dats m 0 c) (arrays_at_entry m c 5) (after_5 m c) t d

/-! ## The body at a generic grid point -/

/-- What the body is called with at point `t`: the region's invariant, and the seven current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: its six inputs hold their blocks, so the body's triple applies; the invariant passes
    through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of the program terminates, and every final state has each array of the region at what
    the proof data computes and every other buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := arrays_at_entry m)
    (hΦ := fun _ _ => rfl)

/-- The frame: the program terminates without a fault and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_kept m ρ (dats m) (arrays_at_entry m) (run_main m ρ)

end Cert.KernelIdeal.Hand

end
-- ==== Proof.Mix.lean ====
/-
  The result of the layer, as one function of its ingredients, on the extended reals.

  Ingredients: three propagated feature arrays y_0, y_1, y_2 (100000 x 64) and three more, yt_0, yt_1, yt_2; two
  stacks of three 64 x 64 weight matrices W, W' and two stacks of three bias rows b, b'.  One projected layer is
      P_i(y, W, b)(n, o) = (sum over k of y(n, k) * W(i, o, k)) + b(i, o),
  the three layers are weighted 1, 1/2, 1/4 and added, and the two weighted sums are mixed half and half:
      mix(n, o) = 1/2 * ((P_0(y_0) + P_1(y_1) * 1/2) + P_2(y_2) * 1/4) + 1/2 * (the same over yt, W', b').
  The weights 1/2 and 1/4 are kept as the float words the two programs print (the same words on both sides, so they
  are never evaluated).  A program that starts its sum from a zero array and multiplies the first layer by one
  computes the same numbers: 0 + a * 1 = a holds for every extended real a, the infinities included.
-/
import Idealize.ShloMosaic.PureOps.Ideal
import Idealize.ShloMosaic.PureOps.Ideal.Laws
import Idealize.ShloMosaic.Lib.ValueIdx
import Idealize.ShloMosaic.Lib.IdealHost

noncomputable section

namespace Cert.Mix

open Idealize.ShloMosaic Idealize.ShloMosaic.ValueIdx

abbrev Nodes : Shape := ⟨2, ![100000, 64]⟩
abbrev Weights : Shape := ⟨3, ![3, 64, 64]⟩
abbrev Biases : Shape := ⟨2, ![3, 64]⟩

/-- The float word of one half, read as an extended real. -/
def half : EReal := Ideal.ofBits .f32 0x3F000000#32
/-- The float word of one quarter, read as an extended real. -/
def quarter : EReal := Ideal.ofBits .f32 0x3E800000#32

/-- Layer `i` projected: row `n` of `y` against row `o` of the `i`-th weight matrix, plus the `i`-th bias at `o`. -/
def proj (y : Nodes.Idx → EReal) (W : Weights.Idx → EReal) (b : Biases.Idx → EReal) (i : Fin 3) (n : Fin 100000)
    (o : Fin 64) : EReal :=
  (∑ k : Fin 64, y (ix2 n k) * W (ix3 i o k)) + b (ix2 i o)

/-- The three projected layers weighted 1, 1/2, 1/4 and added, left to right. -/
def weighted (y0 y1 y2 : Nodes.Idx → EReal) (W : Weights.Idx → EReal) (b : Biases.Idx → EReal) (n : Fin 100000)
    (o : Fin 64) : EReal :=
  (proj y0 W b 0 n o + proj y1 W b 1 n o * half) + proj y2 W b 2 n o * quarter

/-- The two weighted sums mixed half and half. -/
def mix (y0 y1 y2 yt0 yt1 yt2 : Nodes.Idx → EReal) (W : Weights.Idx → EReal) (b : Biases.Idx → EReal)
    (W' : Weights.Idx → EReal) (b' : Biases.Idx → EReal) (n : Fin 100000) (o : Fin 64) : EReal :=
  half * weighted y0 y1 y2 W b n o + half * weighted yt0 yt1 yt2 W' b' n o

/-- A sum started from the zero word with its first term multiplied by the word of one is the sum without them. -/
theorem from_zero_times_one (a b c : EReal) :
    ((Ideal.ofBits .f32 0x00000000#32 + a * Ideal.ofBits .f32 0x3F800000#32) + b) + c = (a + b) + c := by
  rw [Ideal.ofBits_zero_f32, Ideal.ofBits_one_f32, mul_one, zero_add]

/-- Three numbers weighted 1, 1/2, 1/4 and added the long way round: from the zero word, the first times the word
    of one. -/
def weightedFromZero (p0 p1 p2 : EReal) : EReal :=
  ((Ideal.ofBits .f32 0x00000000#32 + p0 * Ideal.ofBits .f32 0x3F800000#32) + p1 * half) + p2 * quarter

theorem weightedFromZero_eq (p0 p1 p2 : EReal) : weightedFromZero p0 p1 p2 = (p0 + p1 * half) + p2 * quarter :=
  from_zero_times_one p0 (p1 * half) (p2 * quarter)

/-- The mix over projected layers given as numbers. -/
def mixFromZero (p0 p1 p2 p0' p1' p2' : EReal) : EReal :=
  half * weightedFromZero p0 p1 p2 + half * weightedFromZero p0' p1' p2'

/-- The long way round computes the mix. -/
theorem mixFromZero_eq (y0 y1 y2 yt0 yt1 yt2 : Nodes.Idx → EReal) (W : Weights.Idx → EReal) (b : Biases.Idx → EReal)
    (W' : Weights.Idx → EReal) (b' : Biases.Idx → EReal) (n : Fin 100000) (o : Fin 64) :
    mixFromZero (proj y0 W b 0 n o) (proj y1 W b 1 n o) (proj y2 W b 2 n o)
        (proj yt0 W' b' 0 n o) (proj yt1 W' b' 1 n o) (proj yt2 W' b' 2 n o)
      = mix y0 y1 y2 yt0 yt1 yt2 W b W' b' n o := by
  unfold mixFromZero mix weighted
  rw [weightedFromZero_eq, weightedFromZero_eq]

end Cert.Mix

end
-- ==== Proof.KernelIdealStored.lean ====
/-
  The value the body stores, read at an index, on the extended reals.

  The stored value is built from the body's loads by casts between shapes with and without a leading unit axis, changes
  of float format (the identity on the extended reals), a transpose of each weight matrix, six matrix products into a
  zero accumulator, broadcasts of the bias rows and pointwise sums and products.  Read at row r and column o of the
  5000 x 64 block it is
      1/2 * (((0 + P_0 * 1) + P_1 * 1/2) + P_2 * 1/4) + 1/2 * (the same over the second stack, weights and biases)
  with P_i = (sum over k of y(i, r, k) * w(i, o, k)) + b(i, o): each product sums over the one contracted axis, the
  transpose exchanges the weight matrix's two indices, and layer i of a buffer is read at leading coordinate i.
-/
import proofs.«108343_j62723702391592_1_alg».proof.Proof.KernelIdealBody
import proofs.«108343_j62723702391592_1_alg».proof.Proof.Mix
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx Idealize.SL.Sem
open Cert.KernelIdeal.Gen

variable {F : FTy → Type} [FloatOps F]

/-! ## A layer of a buffer, loaded -/

/- A load through the rectangle of layer `i` is the buffer read at leading coordinate `i`, the other coordinates kept. -/

theorem ld_layer0 (x : Vec F S3x5000x64 .f32) :
    View.ld x layer0 = fun j => x (ix3 (0 : Fin 3) (j 1) (j 2)) := by
  funext j
  show x (layer0.idx j) = _
  refine congrArg x (funext fun a => Fin.ext ?_)
  match a with
  | ⟨0, _⟩ => show 0 + 1 * (j 0).val = 0; have h0 : (j 0).val < 1 := (j 0).isLt; omega
  | ⟨1, _⟩ => show 0 + 1 * (j 1).val = (j 1).val; omega
  | ⟨2, _⟩ => show 0 + 1 * (j 2).val = (j 2).val; omega
theorem ld_weight0 (x : Vec F S3x64x64 .f32) :
    View.ld x weight0 = fun j => x (ix3 (0 : Fin 3) (j 1) (j 2)) := by
  funext j
  show x (weight0.idx j) = _
  refine congrArg x (funext fun a => Fin.ext ?_)
  match a with
  | ⟨0, _⟩ => show 0 + 1 * (j 0).val = 0; have h0 : (j 0).val < 1 := (j 0).isLt; omega
  | ⟨1, _⟩ => show 0 + 1 * (j 1).val = (j 1).val; omega
  | ⟨2, _⟩ => show 0 + 1 * (j 2).val = (j 2).val; omega
theorem ld_bias0 (x : Vec F S3x64 .f32) :
    View.ld x bias0 = fun j => x (ix2 (0 : Fin 3) (j 1)) := by
  funext j
  show x (bias0.idx j) = _
  refine congrArg x (funext fun a => Fin.ext ?_)
  match a with
  | ⟨0, _⟩ => show 0 + 1 * (j 0).val = 0; have h0 : (j 0).val < 1 := (j 0).isLt; omega
  | ⟨1, _⟩ => show 0 + 1 * (j 1).val = (j 1).val; omega
theorem ld_layer1 (x : Vec F S3x5000x64 .f32) :
    View.ld x layer1 = fun j => x (ix3 (1 : Fin 3) (j 1) (j 2)) := by
  funext j
  show x (layer1.idx j) = _
  refine congrArg x (funext fun a => Fin.ext ?_)
  match a with
  | ⟨0, _⟩ => show 1 + 1 * (j 0).val = 1; have h0 : (j 0).val < 1 := (j 0).isLt; omega
  | ⟨1, _⟩ => show 0 + 1 * (j 1).val = (j 1).val; omega
  | ⟨2, _⟩ => show 0 + 1 * (j 2).val = (j 2).val; omega
theorem ld_weight1 (x : Vec F S3x64x64 .f32) :
    View.ld x weight1 = fun j => x (ix3 (1 : Fin 3) (j 1) (j 2)) := by
  funext j
  show x (weight1.idx j) = _
  refine congrArg x (funext fun a => Fin.ext ?_)
  match a with
  | ⟨0, _⟩ => show 1 + 1 * (j 0).val = 1; have h0 : (j 0).val < 1 := (j 0).isLt; omega
  | ⟨1, _⟩ => show 0 + 1 * (j 1).val = (j 1).val; omega
  | ⟨2, _⟩ => show 0 + 1 * (j 2).val = (j 2).val; omega
theorem ld_bias1 (x : Vec F S3x64 .f32) :
    View.ld x bias1 = fun j => x (ix2 (1 : Fin 3) (j 1)) := by
  funext j
  show x (bias1.idx j) = _
  refine congrArg x (funext fun a => Fin.ext ?_)
  match a with
  | ⟨0, _⟩ => show 1 + 1 * (j 0).val = 1; have h0 : (j 0).val < 1 := (j 0).isLt; omega
  | ⟨1, _⟩ => show 0 + 1 * (j 1).val = (j 1).val; omega
theorem ld_layer2 (x : Vec F S3x5000x64 .f32) :
    View.ld x layer2 = fun j => x (ix3 (2 : Fin 3) (j 1) (j 2)) := by
  funext j
  show x (layer2.idx j) = _
  refine congrArg x (funext fun a => Fin.ext ?_)
  match a with
  | ⟨0, _⟩ => show 2 + 1 * (j 0).val = 2; have h0 : (j 0).val < 1 := (j 0).isLt; omega
  | ⟨1, _⟩ => show 0 + 1 * (j 1).val = (j 1).val; omega
  | ⟨2, _⟩ => show 0 + 1 * (j 2).val = (j 2).val; omega
theorem ld_weight2 (x : Vec F S3x64x64 .f32) :
    View.ld x weight2 = fun j => x (ix3 (2 : Fin 3) (j 1) (j 2)) := by
  funext j
  show x (weight2.idx j) = _
  refine congrArg x (funext fun a => Fin.ext ?_)
  match a with
  | ⟨0, _⟩ => show 2 + 1 * (j 0).val = 2; have h0 : (j 0).val < 1 := (j 0).isLt; omega
  | ⟨1, _⟩ => show 0 + 1 * (j 1).val = (j 1).val; omega
  | ⟨2, _⟩ => show 0 + 1 * (j 2).val = (j 2).val; omega
theorem ld_bias2 (x : Vec F S3x64 .f32) :
    View.ld x bias2 = fun j => x (ix2 (2 : Fin 3) (j 1)) := by
  funext j
  show x (bias2.idx j) = _
  refine congrArg x (funext fun a => Fin.ext ?_)
  match a with
  | ⟨0, _⟩ => show 2 + 1 * (j 0).val = 2; have h0 : (j 0).val < 1 := (j 0).isLt; omega
  | ⟨1, _⟩ => show 0 + 1 * (j 1).val = (j 1).val; omega

/-! ## One projected layer -/

/-- One projected layer as the body spells it, from the three loads it is made of: the matrix product of the layer
    (cast to 5000 x 64) with the transposed weight matrix (cast to 64 x 64), into a zero accumulator, plus the bias
    row broadcast over the 5000 rows. -/
def layerK (Y : Vec F S1x5000x64 .f32) (W : Vec F S1x64x64 .f32) (b : Vec F S1x64 .f32) : FVec F S5000x64 .f32 :=
  addf
    (matmul dot_S5000x64_S64x64_S5000x64_1_0_0_1_n_n none
      (truncf .bf16 (shapeCast S5000x64 Y shapeCasts_S1x5000x64_S5000x64) bitsLt_bf16_f32)
      (transpose S64x64 [1, 0] (truncf .bf16 (shapeCast S64x64 W shapeCasts_S1x64x64_S64x64) bitsLt_bf16_f32)
        transposes_S64x64_p1_0_S64x64)
      (constant S5000x64 .f32 0x00000000#32))
    (broadcastTo S5000x64 (shapeCast S1x64 (shapeCast S64 b shapeCasts_S1x64_S64) shapeCasts_S64_S1x64)
      broadcasts_S1x64_S5000x64)

local notation "dotK" => dot_S5000x64_S64x64_S5000x64_1_0_0_1_n_n

/-- The product's left operand is read at the output's row and the contracted index, -/
theorem dotK_lhs0 (i : S5000x64.Idx) (q : (dot_S5000x64_S64x64_S5000x64_1_0_0_1_n_n).contr.Idx) :
    ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl
theorem dotK_lhs1 (i : S5000x64.Idx) (q : (dot_S5000x64_S64x64_S5000x64_1_0_0_1_n_n).contr.Idx) :
    ((dot_S5000x64_S64x64_S5000x64_1_0_0_1_n_n).lhsIdx i q 1).val = (q ⟨0, by decide⟩).val :=
  (dot_S5000x64_S64x64_S5000x64_1_0_0_1_n_n).lhsIdx_val_of_single rfl i q
/-- and its right operand at the contracted index and the output's column. -/
theorem dotK_rhs0 (i : S5000x64.Idx) (q : (dot_S5000x64_S64x64_S5000x64_1_0_0_1_n_n).contr.Idx) :
    ((dot_S5000x64_S64x64_S5000x64_1_0_0_1_n_n).rhsIdx i q 0).val = (q ⟨0, by decide⟩).val :=
  (dot_S5000x64_S64x64_S5000x64_1_0_0_1_n_n).rhsIdx_val_of_single rfl i q
theorem dotK_rhs1 (i : S5000x64.Idx) (q : (dot_S5000x64_S64x64_S5000x64_1_0_0_1_n_n).contr.Idx) :
    ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl

/-- One projected layer at row `r`, column `o`: the row of the layer against the row `o` of the weight matrix (the
    transpose exchanges the matrix's indices), plus the bias at `o`. -/
theorem layerK_apply (Y : Vec Ideal S1x5000x64 .f32) (W : Vec Ideal S1x64x64 .f32) (b : Vec Ideal S1x64 .f32)
    (r : Fin 5000) (o : Fin 64) :
    layerK (F := Ideal) Y W b (ix2 r o)
      = (∑ k : Fin 64, Y (ix3 (0 : Fin 1) r k) * W (ix3 (0 : Fin 1) o k)) + b (ix2 (0 : Fin 1) o) := by
  unfold layerK
  rw [addf_apply]
  simp only [matmul]
  rw [Ideal.matmul_constant_zero_apply,
    ← Equiv.sum_comp (contrEquiv1 dot_S5000x64_S64x64_S5000x64_1_0_0_1_n_n 64 rfl rfl).symm]
  refine congrArg₂ (· + ·) (Finset.sum_congr rfl fun k _ => ?_) ?_
  · have hk := contrEquiv1_symm_val dot_S5000x64_S64x64_S5000x64_1_0_0_1_n_n 64 rfl rfl k
    have el : (dot_S5000x64_S64x64_S5000x64_1_0_0_1_n_n).lhsIdx (ix2 r o)
        ((contrEquiv1 dot_S5000x64_S64x64_S5000x64_1_0_0_1_n_n 64 rfl rfl).symm k) = ix2 r k :=
      funext fun a => Fin.ext (by
        match a with
        | ⟨0, _⟩ => exact dotK_lhs0 _ _
        | ⟨1, _⟩ => exact (dotK_lhs1 _ _).trans hk)
    have er : (dot_S5000x64_S64x64_S5000x64_1_0_0_1_n_n).rhsIdx (ix2 r o)
        ((contrEquiv1 dot_S5000x64_S64x64_S5000x64_1_0_0_1_n_n 64 rfl rfl).symm k) = ix2 k o :=
      funext fun a => Fin.ext (by
        match a with
        | ⟨0, _⟩ => exact (dotK_rhs0 _ _).trans hk
        | ⟨1, _⟩ => exact dotK_rhs1 _ _)
    rw [el, er, truncf_apply, shapeCast_1ab_ab_apply, transpose_ix2_apply, truncf_apply, shapeCast_1ab_ab_apply]
  · rw [broadcastTo_1b_ab_apply, shapeCast_a_1a_apply, shapeCast_1a_a_apply]

/-! ## The stored value -/

/-- The stored value is the mix of the two weighted sums of three projected layers each, every layer one `layerK`
    of the loads it is made of: the body's named intermediate values unfolded. -/
theorem stored_is (Y0 Y1 Y2 T0 T1 T2 : Vec F S1x5000x64 .f32) (W0 W1 W2 V0 V1 V2 : Vec F S1x64x64 .f32)
    (B0 B1 B2 C0 C1 C2 : Vec F S1x64 .f32) :
    k0_pay1 (k0_pay4 (k0_pay2 Y0 W0 B0) Y1 W1 B1) (k0_pay5 (k0_pay3 T0 V0 C0) T1 V1 C1) (k0_pay6 Y2) (k0_pay7 T2)
        W2 V2 B2 C2
      = addf
          (mulf (broadcast S5000x64 (Scalar.ofBits .f32 0x3F000000#32))
            (addf (addf (addf (broadcast S5000x64 (Scalar.ofBits .f32 0x00000000#32))
                  (mulf (layerK Y0 W0 B0) (broadcast S5000x64 (Scalar.ofBits .f32 0x3F800000#32))))
                (mulf (layerK Y1 W1 B1) (broadcast S5000x64 (Scalar.ofBits .f32 0x3F000000#32))))
              (mulf (layerK Y2 W2 B2) (broadcast S5000x64 (Scalar.ofBits .f32 0x3E800000#32)))))
          (mulf (broadcast S5000x64 (Scalar.ofBits .f32 0x3F000000#32))
            (addf (addf (addf (broadcast S5000x64 (Scalar.ofBits .f32 0x00000000#32))
                  (mulf (layerK T0 V0 C0) (broadcast S5000x64 (Scalar.ofBits .f32 0x3F800000#32))))
                (mulf (layerK T1 V1 C1) (broadcast S5000x64 (Scalar.ofBits .f32 0x3F000000#32))))
              (mulf (layerK T2 V2 C2) (broadcast S5000x64 (Scalar.ofBits .f32 0x3E800000#32))))) := rfl

/-- The stored value at row `r`, column `o`, from the eighteen loaded layers: the mix, the long way round, of the six
    projected layers at (r, o). -/
theorem stored_layers_at (Y0 Y1 Y2 T0 T1 T2 : Vec Ideal S1x5000x64 .f32) (W0 W1 W2 V0 V1 V2 : Vec Ideal S1x64x64 .f32)
    (B0 B1 B2 C0 C1 C2 : Vec Ideal S1x64 .f32) (r : Fin 5000) (o : Fin 64) :
    k0_pay1 (F := Ideal) (k0_pay4 (k0_pay2 Y0 W0 B0) Y1 W1 B1) (k0_pay5 (k0_pay3 T0 V0 C0) T1 V1 C1) (k0_pay6 Y2)
        (k0_pay7 T2) W2 V2 B2 C2 (ix2 r o)
      = Cert.Mix.mixFromZero
          ((∑ k : Fin 64, Y0 (ix3 (0 : Fin 1) r k) * W0 (ix3 (0 : Fin 1) o k)) + B0 (ix2 (0 : Fin 1) o))
          ((∑ k : Fin 64, Y1 (ix3 (0 : Fin 1) r k) * W1 (ix3 (0 : Fin 1) o k)) + B1 (ix2 (0 : Fin 1) o))
          ((∑ k : Fin 64, Y2 (ix3 (0 : Fin 1) r k) * W2 (ix3 (0 : Fin 1) o k)) + B2 (ix2 (0 : Fin 1) o))
          ((∑ k : Fin 64, T0 (ix3 (0 : Fin 1) r k) * V0 (ix3 (0 : Fin 1) o k)) + C0 (ix2 (0 : Fin 1) o))
          ((∑ k : Fin 64, T1 (ix3 (0 : Fin 1) r k) * V1 (ix3 (0 : Fin 1) o k)) + C1 (ix2 (0 : Fin 1) o))
          ((∑ k : Fin 64, T2 (ix3 (0 : Fin 1) r k) * V2 (ix3 (0 : Fin 1) o k)) + C2 (ix2 (0 : Fin 1) o)) := by
  rw [stored_is]
  simp only [addf_apply, mulf_apply, broadcast_apply, layerK_apply]
  rfl

/-- The same from the six buffers' contents, layer `i` read at leading coordinate `i` of its three buffers. -/
theorem stored_at (y yt : Vec Ideal S3x5000x64 .f32) (w : Vec Ideal S3x64x64 .f32) (b : Vec Ideal S3x64 .f32)
    (w' : Vec Ideal S3x64x64 .f32) (b' : Vec Ideal S3x64 .f32) (r : Fin 5000) (o : Fin 64) :
    k0_pay1 (F := Ideal)
        (k0_pay4 (k0_pay2 (View.ld y layer0) (View.ld w weight0) (View.ld b bias0))
          (View.ld y layer1) (View.ld w weight1) (View.ld b bias1))
        (k0_pay5 (k0_pay3 (View.ld yt layer0) (View.ld w' weight0) (View.ld b' bias0))
          (View.ld yt layer1) (View.ld w' weight1) (View.ld b' bias1))
        (k0_pay6 (View.ld y layer2)) (k0_pay7 (View.ld yt layer2))
        (View.ld w weight2) (View.ld w' weight2) (View.ld b bias2) (View.ld b' bias2) (ix2 r o)
      = Cert.Mix.mixFromZero
          ((∑ k : Fin 64, y (ix3 (0 : Fin 3) r k) * w (ix3 (0 : Fin 3) o k)) + b (ix2 (0 : Fin 3) o))
          ((∑ k : Fin 64, y (ix3 (1 : Fin 3) r k) * w (ix3 (1 : Fin 3) o k)) + b (ix2 (1 : Fin 3) o))
          ((∑ k : Fin 64, y (ix3 (2 : Fin 3) r k) * w (ix3 (2 : Fin 3) o k)) + b (ix2 (2 : Fin 3) o))
          ((∑ k : Fin 64, yt (ix3 (0 : Fin 3) r k) * w' (ix3 (0 : Fin 3) o k)) + b' (ix2 (0 : Fin 3) o))
          ((∑ k : Fin 64, yt (ix3 (1 : Fin 3) r k) * w' (ix3 (1 : Fin 3) o k)) + b' (ix2 (1 : Fin 3) o))
          ((∑ k : Fin 64, yt (ix3 (2 : Fin 3) r k) * w' (ix3 (2 : Fin 3) o k)) + b' (ix2 (2 : Fin 3) o)) := by
  rw [ld_layer0 y, ld_layer1 y, ld_layer2 y, ld_layer0 yt, ld_layer1 yt, ld_layer2 yt,
    ld_weight0 w, ld_weight1 w, ld_weight2 w, ld_weight0 w', ld_weight1 w', ld_weight2 w',
    ld_bias0 b, ld_bias1 b, ld_bias2 b, ld_bias0 b', ld_bias1 b', ld_bias2 b']
  rw [stored_layers_at]

end Cert.KernelIdeal.Hand

end
-- ==== Proof.KernelIdealValue.lean ====
/-
  From the blocks the grid points write to the whole result array.

  Grid point t (of twenty) stages rows 5000 t … 5000 t + 4999 of each layer of the two stacks and the whole weight and
  bias arrays, and writes back rows 5000 t … 5000 t + 4999 of the result.  So what it writes at local row r, column o
  is the mix at global row n = 5000 t + r: the block of the whole-array function.  The twenty blocks of 5000 rows cover
  the 100000 rows (row n lies in the block of point n / 5000), so the result array ends as that function everywhere.
-/
import proofs.«108343_j62723702391592_1_alg».proof.Proof.KernelIdealRun
import proofs.«108343_j62723702391592_1_alg».proof.Proof.KernelIdealStored
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal.Gen

/-! ## The whole-array function -/

/-- The result at node `n`, feature `o`, from the two stacks, the weights and the biases as the region stages them:
    the mix, the long way round, of the six projected layers at (n, o). -/
def wholeMixAt (Y Yt : S3x100000x64.Idx → EReal) (W : S3x64x64.Idx → EReal) (b : S3x64.Idx → EReal)
    (W' : S3x64x64.Idx → EReal) (b' : S3x64.Idx → EReal) (n : Fin 100000) (o : Fin 64) : EReal :=
  Cert.Mix.mixFromZero
    ((∑ k : Fin 64, Y (ix3 (0 : Fin 3) n k) * W (ix3 (0 : Fin 3) o k)) + b (ix2 (0 : Fin 3) o))
    ((∑ k : Fin 64, Y (ix3 (1 : Fin 3) n k) * W (ix3 (1 : Fin 3) o k)) + b (ix2 (1 : Fin 3) o))
    ((∑ k : Fin 64, Y (ix3 (2 : Fin 3) n k) * W (ix3 (2 : Fin 3) o k)) + b (ix2 (2 : Fin 3) o))
    ((∑ k : Fin 64, Yt (ix3 (0 : Fin 3) n k) * W' (ix3 (0 : Fin 3) o k)) + b' (ix2 (0 : Fin 3) o))
    ((∑ k : Fin 64, Yt (ix3 (1 : Fin 3) n k) * W' (ix3 (1 : Fin 3) o k)) + b' (ix2 (1 : Fin 3) o))
    ((∑ k : Fin 64, Yt (ix3 (2 : Fin 3) n k) * W' (ix3 (2 : Fin 3) o k)) + b' (ix2 (2 : Fin 3) o))

/-- The same as an array. -/
def wholeMix (Y Yt : S3x100000x64.Idx → EReal) (W : S3x64x64.Idx → EReal) (b : S3x64.Idx → EReal)
    (W' : S3x64x64.Idx → EReal) (b' : S3x64.Idx → EReal) : S100000x64.Idx → EReal :=
  fun i => wholeMixAt Y Yt W b W' b' (i 0) (i 1)

/-! ## The index maps over the grid -/

theorem zeros2 : (![0, 0] : Fin 2 → Nat) = fun _ => 0 := funext fun a => by fin_cases a <;> rfl

/-- The two stacks move with the grid point along their middle axis, the weights and biases do not move, and the
    result moves with the grid point along its rows. -/
theorem index_maps : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 20 := lt_of_lt_of_eq t.isLt N_0

/-- The global row of local row `r` at grid point `t`. -/
def rowOf (t : Fin cfg0.N) (r : Fin 5000) : Fin 100000 :=
  ⟨t.val * 5000 + r.val, by have h1 := point_lt t; have h2 := r.isLt; omega⟩

/-! ## What a grid point writes back -/

/-- At any grid point, for any contents of the six staged arrays: the body's stored value computed from the six
    blocks at the point is the point's block of the whole-array function of the six arrays. -/
theorem point_writes_block (Y Yt : S3x100000x64.Idx → EReal) (W : S3x64x64.Idx → EReal) (b : S3x64.Idx → EReal)
    (W' : S3x64x64.Idx → EReal) (b' : S3x64.Idx → EReal) (t : Fin cfg0.N) :
    (cfg0.win 6).cut (grid0.coords t)
        (mixed (F := Ideal) (((cfg0.win 0).blk t).view.read (Elt Ideal) Y) (((cfg0.win 1).blk t).view.read (Elt Ideal) Yt)
          (((cfg0.win 2).blk t).view.read (Elt Ideal) W) (((cfg0.win 3).blk t).view.read (Elt Ideal) b)
          (((cfg0.win 4).blk t).view.read (Elt Ideal) W') (((cfg0.win 5).blk t).view.read (Elt Ideal) b'))
      = ((cfg0.win 6).blk t).view.read (Elt Ideal) (wholeMix Y Yt W b W' b') := by
  unfold mixed
  rw [View.canon_unit_zero zeros2]
  obtain ⟨a0, a1, a2, c0, c1, c2, w0, w1, w2, d0, d1, v0, v1, v2, f0, f1, o0, o1⟩ := index_maps t
  funext j
  obtain ⟨r, o, rfl⟩ : ∃ (r : Fin 5000) (o : Fin 64), j = ix2 r o := ⟨j 0, j 1, eq_ix2 j⟩
  have hY : ∀ (l : Fin 3) (k : Fin 64),
      ((cfg0.win 0).blk t).view.read (Elt Ideal) Y (ix3 l r k) = Y (ix3 l (rowOf t r) k) := fun l k => by
    show Y (((cfg0.win 0).blk t).view.emb (ix3 l r k)) = _
    refine congrArg Y (funext fun a => Fin.ext ?_)
    match a with
    | ⟨0, _⟩ => show win0_0.index t (0 : Fin 3) * 3 + 1 * l.val = l.val; omega
    | ⟨1, _⟩ => show win0_0.index t (1 : Fin 3) * 5000 + 1 * r.val = t.val * 5000 + r.val; omega
    | ⟨2, _⟩ => show win0_0.index t (2 : Fin 3) * 64 + 1 * k.val = k.val; omega
  have hYt : ∀ (l : Fin 3) (k : Fin 64),
      ((cfg0.win 1).blk t).view.read (Elt Ideal) Yt (ix3 l r k) = Yt (ix3 l (rowOf t r) k) := fun l k => by
    show Yt (((cfg0.win 1).blk t).view.emb (ix3 l r k)) = _
    refine congrArg Yt (funext fun a => Fin.ext ?_)
    match a with
    | ⟨0, _⟩ => show win0_1.index t (0 : Fin 3) * 3 + 1 * l.val = l.val; omega
    | ⟨1, _⟩ => show win0_1.index t (1 : Fin 3) * 5000 + 1 * r.val = t.val * 5000 + r.val; omega
    | ⟨2, _⟩ => show win0_1.index t (2 : Fin 3) * 64 + 1 * k.val = k.val; omega
  have hW : ∀ (l : Fin 3) (k : Fin 64),
      ((cfg0.win 2).blk t).view.read (Elt Ideal) W (ix3 l o k) = W (ix3 l o k) := fun l k => by
    show W (((cfg0.win 2).blk t).view.emb (ix3 l o k)) = _
    refine congrArg W (funext fun a => Fin.ext ?_)
    match a with
    | ⟨0, _⟩ => show win0_2.index t (0 : Fin 3) * 3 + 1 * l.val = l.val; omega
    | ⟨1, _⟩ => show win0_2.index t (1 : Fin 3) * 64 + 1 * o.val = o.val; omega
    | ⟨2, _⟩ => show win0_2.index t (2 : Fin 3) * 64 + 1 * k.val = k.val; omega
  have hb : ∀ (l : Fin 3), ((cfg0.win 3).blk t).view.read (Elt Ideal) b (ix2 l o) = b (ix2 l o) := fun l => by
    show b (((cfg0.win 3).blk t).view.emb (ix2 l o)) = _
    refine congrArg b (funext fun a => Fin.ext ?_)
    match a with
    | ⟨0, _⟩ => show win0_3.index t (0 : Fin 2) * 3 + 1 * l.val = l.val; omega
    | ⟨1, _⟩ => show win0_3.index t (1 : Fin 2) * 64 + 1 * o.val = o.val; omega
  have hW' : ∀ (l : Fin 3) (k : Fin 64),
      ((cfg0.win 4).blk t).view.read (Elt Ideal) W' (ix3 l o k) = W' (ix3 l o k) := fun l k => by
    show W' (((cfg0.win 4).blk t).view.emb (ix3 l o k)) = _
    refine congrArg W' (funext fun a => Fin.ext ?_)
    match a with
    | ⟨0, _⟩ => show win0_4.index t (0 : Fin 3) * 3 + 1 * l.val = l.val; omega
    | ⟨1, _⟩ => show win0_4.index t (1 : Fin 3) * 64 + 1 * o.val = o.val; omega
    | ⟨2, _⟩ => show win0_4.index t (2 : Fin 3) * 64 + 1 * k.val = k.val; omega
  have hb' : ∀ (l : Fin 3), ((cfg0.win 5).blk t).view.read (Elt Ideal) b' (ix2 l o) = b' (ix2 l o) := fun l => by
    show b' (((cfg0.win 5).blk t).view.emb (ix2 l o)) = _
    refine congrArg b' (funext fun a => Fin.ext ?_)
    match a with
    | ⟨0, _⟩ => show win0_5.index t (0 : Fin 2) * 3 + 1 * l.val = l.val; omega
    | ⟨1, _⟩ => show win0_5.index t (1 : Fin 2) * 64 + 1 * o.val = o.val; omega
  have hout : ((cfg0.win 6).blk t).view.emb (ix2 r o) = ix2 (rowOf t r) o := by
    funext a; apply Fin.ext
    match a with
    | ⟨0, _⟩ => show win0_6.index t (0 : Fin 2) * 5000 + 1 * r.val = t.val * 5000 + r.val; omega
    | ⟨1, _⟩ => show win0_6.index t (1 : Fin 2) * 64 + 1 * o.val = o.val; omega
  show k0_pay1 (F := Ideal) _ _ _ _ _ _ _ _ (ix2 r o) = wholeMix Y Yt W b W' b' (((cfg0.win 6).blk t).view.emb (ix2 r o))
  rw [stored_at, hout]
  simp only [hY, hYt, hW, hb, hW', hb']
  rfl

/-! ## The result array after the run -/

variable (m : (ℓ : Loc nD τ sig) → Buf (Elt Ideal) ℓ) (ρ : Dev nD → PrngReg)

/-- What grid point `t` writes back is its block of the whole-array function of the arrays the region finds. -/
theorem flushed_is_block (c : Dev nD) (t : Fin cfg0.N) :
    (dats m 0 c).flushed 6 t = ((cfg0.win 6).blk t).view.read (Elt Ideal)
      (wholeMix (atEntry m c main_v123) (atEntry m c main_v127) (atEntry m c main_arg2) (atEntry m c main_arg3)
        (atEntry m c main_arg4) (atEntry m c main_arg5)) := by
  show (cfg0.win 6).cut (grid0.coords t) ((dats m 0 c).after 6 t) = _
  rw [after_6]
  unfold mixedAt blockAt
  exact point_writes_block _ _ _ _ _ _ t

/-- An index of the result array is in point `t`'s block exactly when each coordinate is in the block's range. -/
theorem mem_block (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v128).slice (win0_6.rect t)).set ↔ _
  rw [View.set_slice_whole, Rect.mem_set_unit]
  exact Iff.rfl

/-- Every grid point has a grid point for every row quotient below twenty. -/
theorem point_of_quotient : ∀ q : Fin 20, ∃ t : Fin cfg0.N, t.val = q.val :=
  (by decide +kernel : ∀ q : Fin 20, ∃ t : Fin grid0.N, t.val = q.val)

/-- Every index of the result array lies in the block of some grid point that writes back: row n in the block of
    point n / 5000. -/
theorem blocks_cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := point_of_quotient ⟨(i 0).val / 5000, by omega⟩
  have ht' : t.val = (i 0).val / 5000 := ht
  obtain ⟨-, -, -, -, -, -, -, -, -, -, -, -, -, -, -, -, o0, o1⟩ := index_maps t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- The result array after the run is the whole-array function of the arrays the region finds. -/
theorem result_array (c : Dev nD) :
    (dats m 0 c).arrAt 6 cfg0.N
      = wholeMix (atEntry m c main_v123) (atEntry m c main_v127) (atEntry m c main_arg2) (atEntry m c main_arg3)
          (atEntry m c main_arg4) (atEntry m c main_arg5) :=
  (dats m 0 c).arrAt_eq_of_cover 6 _ (fun t _ => flushed_is_block m c t) blocks_cover

/-- The run of the program with its result array named and its arguments unchanged. -/
theorem run_result : θ_run defs (onTc (τ := τ) (main (F := Ideal))) ⟨m, fun _ => 0, ρ⟩ fun r => ∀ c : Dev nD,
      r.2.mem ((c.tc : Thread nD τ).loc main_v128)
        = wholeMix (atEntry m c main_v123) (atEntry m c main_v127) (atEntry m c main_arg2) (atEntry m c main_arg3)
            (atEntry m c main_arg4) (atEntry m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).1 6).trans (result_array m c),
      ((h c).2 main_arg0 (Pipeline.mem_restRefs_of main_arg0 (by decide) (by decide))).trans (atEntry_arg0 m c),
      ((h c).2 main_arg1 (Pipeline.mem_restRefs_of main_arg1 (by decide) (by decide))).trans (atEntry_arg1 m c),
      ((h c).1 2).trans (((dats m 0 c).arrAt_in 2 rfl _).trans ((arrays_at_entry m c 2).trans (atEntry_arg2 m c))),
      ((h c).1 3).trans (((dats m 0 c).arrAt_in 3 rfl _).trans ((arrays_at_entry m c 3).trans (atEntry_arg3 m c))),
      ((h c).1 4).trans (((dats m 0 c).arrAt_in 4 rfl _).trans ((arrays_at_entry m c 4).trans (atEntry_arg4 m c))),
      ((h c).1 5).trans (((dats m 0 c).arrAt_in 5 rfl _).trans ((arrays_at_entry m c 5).trans (atEntry_arg5 m c)))⟩)
    (run_main m ρ)

end Cert.KernelIdeal.Hand

end
-- ==== Proof.LibHostLine.lean ====
/-
  Two small tools for reading what a buffer holds after a line of host operations when the line contains a
  concatenation of three operands.  A concatenation takes its operands as a list of (shape, array) pairs together
  with a proof about the list's shapes, so a rewriting pass cannot enter the list; the congruence below splits such a
  goal into its three operands, each of which is then computed on its own.
-/
import Idealize.ShloMosaic.Lib.StableHlo.Run

namespace Cert.HostLine

open Idealize.ShloMosaic Idealize.ShloMosaic.StableHlo

/-- Two concatenations of three operands of the same shapes along the same axis are equal when the operands are. -/
theorem concat3_congr {α : Type} (t : Shape) (a : Fin t.rank) (s1 s2 s3 : Shape)
    (x1 y1 : s1.Idx → α) (x2 y2 : s2.Idx → α) (x3 y3 : s3.Idx → α) (h h')
    (e1 : x1 = y1) (e2 : x2 = y2) (e3 : x3 = y3) :
    concatenate t a [⟨s1, x1⟩, ⟨s2, x2⟩, ⟨s3, x3⟩] h = concatenate t a [⟨s1, y1⟩, ⟨s2, y2⟩, ⟨s3, y3⟩] h' := by
  subst e1 e2 e3; rfl

/-- An operand of a three-operand operation is read at the reference `![a, b, c] k`; at a literal `k` this reduces it
    to the reference itself (β first: the operand family is applied to the literal index). -/
macro "operand_ref" : tactic =>
  `(tactic| dsimp only [Matrix.cons_val_zero, Matrix.cons_val_one, Matrix.cons_val])

end Cert.HostLine
-- ==== Proof.KernelIdealStacks.lean ====
/-
  The two stacked arrays the region stages, in terms of the arguments.

  Before the region the program computes, from the node features x and the edge list e, the per-edge weights and six
  propagated feature arrays: y_0 = A x, yt_0 = A^T x, y_1 = A y_0, yt_1 = A^T y_1, y_2 = A y_1, yt_2 = A^T y_2, with A the
  degree-normalised adjacency, each product a gather of rows along the edges, a scaling by the edge weight and a sum
  into the destination rows.  It then lays y_0, y_1, y_2 along a new leading axis, and yt_0, yt_1, yt_2 likewise.  The
  reference computes the same six arrays by the same operations in the same order, so each is, as a function of x
  and e, the reference's own stage of that name; nothing about gathers or sums is used beyond that.
-/
import proofs.«108343_j62723702391592_1_alg».proof.Proof.KernelIdealEntry
import proofs.«108343_j62723702391592_1_alg».proof.Proof.ReferenceRead
import proofs.«108343_j62723702391592_1_alg».proof.Proof.LibHostLine
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.StableHlo Idealize.ShloMosaic.ValueIdx Idealize.SL.Sem
open Cert.KernelIdeal.Gen Cert.HostLine

variable {F : FTy → Type} [FloatOps F]
variable (m : (ℓ : Loc nD τ sig) → Buf (Elt F) ℓ)

/-- Three 100000 x 64 arrays laid along a new leading axis of extent three. -/
def stack3 (a b c : S100000x64.Idx → Elt F .f32) : S3x100000x64.Idx → Elt F .f32 :=
  concatenate S3x100000x64 0
    [⟨S1x100000x64, broadcastInDim S1x100000x64 ![1, 2] bcast_S100000x64_S1x100000x64_1_2 a⟩,
     ⟨S1x100000x64, broadcastInDim S1x100000x64 ![1, 2] bcast_S100000x64_S1x100000x64_1_2 b⟩,
     ⟨S1x100000x64, broadcastInDim S1x100000x64 ![1, 2] bcast_S100000x64_S1x100000x64_1_2 c⟩]
    concatenates_S1x100000x64_S1x100000x64_S1x100000x64_S3x100000x64_d0

/-- The host line unfolded to its nine stretches' operations. -/
macro "open_host_line" : tactic =>
  `(tactic| simp only [stretches, hostOps0, hostOps0_1, hostOps0_2, hostOps0_3, hostOps0_4, hostOps0_5, hostOps0_6,
      hostOps0_7, hostOps0_8, List.flatten_cons, List.flatten_nil, List.append_nil, List.cons_append, List.nil_append])

set_option maxHeartbeats 400000000 in
/-- The first stack the region finds is y_0, y_1, y_2 of the launch's features and edge list. -/
theorem stackY_at_entry (c : Dev nD) :
    atEntry m c main_v123
      = stack3 (Cert.ReferenceIdeal.ReadP.val_main_v54 (F := F) (m ((c.tc : Thread nD τ).loc main_arg0)) (m ((c.tc : Thread nD τ).loc main_arg1)))
          (Cert.ReferenceIdeal.ReadP.val_main_v98 (F := F) (m ((c.tc : Thread nD τ).loc main_arg0)) (m ((c.tc : Thread nD τ).loc main_arg1)))
          (Cert.ReferenceIdeal.ReadP.val_main_v148 (F := F) (m ((c.tc : Thread nD τ).loc main_arg0)) (m ((c.tc : Thread nD τ).loc main_arg1))) := by
  show StableHlo.after _ _ (Proc.devRef .tc main_v123) = _
  open_host_line
  after_results_simp
  unfold stack3
  refine concat3_congr _ _ _ _ _ _ _ _ _ _ _ _ _ ?_ ?_ ?_ <;> ((try operand_ref); (try after_results_simp); rfl)

set_option maxHeartbeats 400000000 in
/-- The second stack the region finds is yt_0, yt_1, yt_2 of the launch's features and edge list. -/
theorem stackYt_at_entry (c : Dev nD) :
    atEntry m c main_v127
      = stack3 (Cert.ReferenceIdeal.ReadP.val_main_v67 (F := F) (m ((c.tc : Thread nD τ).loc main_arg0)) (m ((c.tc : Thread nD τ).loc main_arg1)))
          (Cert.ReferenceIdeal.ReadP.val_main_v111 (F := F) (m ((c.tc : Thread nD τ).loc main_arg0)) (m ((c.tc : Thread nD τ).loc main_arg1)))
          (Cert.ReferenceIdeal.ReadP.val_main_v161 (F := F) (m ((c.tc : Thread nD τ).loc main_arg0)) (m ((c.tc : Thread nD τ).loc main_arg1))) := by
  show StableHlo.after _ _ (Proc.devRef .tc main_v127) = _
  open_host_line
  after_results_simp
  unfold stack3
  refine concat3_congr _ _ _ _ _ _ _ _ _ _ _ _ _ ?_ ?_ ?_ <;> ((try operand_ref); (try after_results_simp); rfl)

/-! ## A layer of a stack -/

/- Layer `l` of a stack of three arrays, at row `n` and column `k`, is the `l`-th array at (n, k): the stack is the
   three arrays, each given a leading axis of extent one, laid end to end along that axis. -/

theorem stack3_layer0 (a b c : S100000x64.Idx → Elt F .f32) (n : Fin 100000) (k : Fin 64) :
    stack3 a b c (ix3 (0 : Fin 3) n k) = a (ix2 n k) := by
  unfold stack3
  refine (concatenate_apply_piece (0 : Fin S3x100000x64.rank) _ _ (ix3 (0 : Fin 3) n k) 0 (by show 0 < 3; omega) S1x100000x64 _ rfl rfl
    0 (by first | rfl | simp) (ix3 (0 : Fin 1) n k)
    (fun d hd => by
      match d with
      | ⟨0, _⟩ => exact absurd rfl hd
      | ⟨1, _⟩ => rfl
      | ⟨2, _⟩ => rfl)
    (by rfl)).trans ?_
  exact broadcastInDim_apply _ _ _ _ (ix2 n k) (fun d => by
    match d with
    | ⟨0, _⟩ => show n.val = if (100000 : Nat) = 1 then 0 else n.val; rw [if_neg (by decide)]
    | ⟨1, _⟩ => show k.val = if (64 : Nat) = 1 then 0 else k.val; rw [if_neg (by decide)])
theorem stack3_layer1 (a b c : S100000x64.Idx → Elt F .f32) (n : Fin 100000) (k : Fin 64) :
    stack3 a b c (ix3 (1 : Fin 3) n k) = b (ix2 n k) := by
  unfold stack3
  refine (concatenate_apply_piece (0 : Fin S3x100000x64.rank) _ _ (ix3 (1 : Fin 3) n k) 1 (by show 1 < 3; omega) S1x100000x64 _ rfl rfl
    1 (by first | rfl | simp) (ix3 (0 : Fin 1) n k)
    (fun d hd => by
      match d with
      | ⟨0, _⟩ => exact absurd rfl hd
      | ⟨1, _⟩ => rfl
      | ⟨2, _⟩ => rfl)
    (by rfl)).trans ?_
  exact broadcastInDim_apply _ _ _ _ (ix2 n k) (fun d => by
    match d with
    | ⟨0, _⟩ => show n.val = if (100000 : Nat) = 1 then 0 else n.val; rw [if_neg (by decide)]
    | ⟨1, _⟩ => show k.val = if (64 : Nat) = 1 then 0 else k.val; rw [if_neg (by decide)])
theorem stack3_layer2 (a b c : S100000x64.Idx → Elt F .f32) (n : Fin 100000) (k : Fin 64) :
    stack3 a b c (ix3 (2 : Fin 3) n k) = c (ix2 n k) := by
  unfold stack3
  refine (concatenate_apply_piece (0 : Fin S3x100000x64.rank) _ _ (ix3 (2 : Fin 3) n k) 2 (by show 2 < 3; omega) S1x100000x64 _ rfl rfl
    2 (by first | rfl | simp) (ix3 (0 : Fin 1) n k)
    (fun d hd => by
      match d with
      | ⟨0, _⟩ => exact absurd rfl hd
      | ⟨1, _⟩ => rfl
      | ⟨2, _⟩ => rfl)
    (by rfl)).trans ?_
  exact broadcastInDim_apply _ _ _ _ (ix2 n k) (fun d => by
    match d with
    | ⟨0, _⟩ => show n.val = if (100000 : Nat) = 1 then 0 else n.val; rw [if_neg (by decide)]
    | ⟨1, _⟩ => show k.val = if (64 : Nat) = 1 then 0 else k.val; rw [if_neg (by decide)])

end Cert.KernelIdeal.Hand

end
-- ==== Proof.RefValue.lean ====
/-
  The reference's result, read index by index.

  The reference computes the six propagated feature arrays and then, on whole arrays, each projected layer as a matrix
  product with the transposed layer of the weight stack plus the broadcast layer of the bias stack, the weighted sums
  and the mix.  Read at node n and feature o this is the mix of the specification, with the six propagated arrays the
  reference's own stages.  The slices, reshapes, transposes and broadcasts only move indices: layer i of a stack is
  read at leading coordinate i, the reshape of a 1 x 64 x 64 slice to 64 x 64 keeps the two inner coordinates, the
  transpose exchanges them.
-/
import proofs.«108343_j62723702391592_1_alg».proof.Proof.ReferenceRead
import proofs.«108343_j62723702391592_1_alg».proof.Proof.Mix

set_option maxRecDepth 16384

noncomputable section

namespace Cert.ReferenceIdeal.RefValue

open Idealize.ShloMosaic Idealize.ShloMosaic.ValueIdx Idealize.SL.Sem
open Cert.ReferenceIdeal Cert.ReferenceIdeal.Gen Cert.ReferenceIdeal.ReadP

/-! ## One projected layer -/

/-- Layer 0 of the first weighted sum at node `n`, feature `o`: the row of the propagated features against row `o` of
    the layer's weight matrix (sliced out of the stack, reshaped and transposed), plus the layer's bias at `o`. -/
theorem layer_sd0 (x0 : (⟨S100000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S3x64, .f32⟩ : BufTy).Contents (Elt Ideal))
    (n : Fin 100000) (o : Fin 64) :
    val_main_v76 (F := Ideal) x0 x1 x2 x3 (ix2 n o)
      = Cert.Mix.proj (val_main_v54 (F := Ideal) x0 x1) x2 x3 (0 : Fin 3) n o := by
  rw [val_main_v76_apply, val_main_v71_apply, val_main_v75_apply, val_main_v74_apply, val_main_v73_apply,
    val_main_v72_apply]
  simp only [val_main_v70_apply, val_main_v69_apply, val_main_v68_apply]
  unfold Cert.Mix.proj
  refine congrArg₂ (· + ·) (Finset.sum_congr rfl fun k _ => congrArg₂ (· * ·) (congrArg _ ?_) (congrArg _ ?_)) (congrArg _ ?_)
  · exact funext fun a => Fin.ext (by
      match a with
      | ⟨0, _⟩ => rfl
      | ⟨1, _⟩ => rfl)
  · exact funext fun a => Fin.ext (by
      have ho := o.isLt; have hk := k.isLt
      match a with
      | ⟨0, _⟩ => show 0 + 0 = 0; omega
      | ⟨1, _⟩ => show (o.val * 64 + k.val) / 64 % 64 = o.val; omega
      | ⟨2, _⟩ => show (o.val * 64 + k.val) % 64 = k.val; omega)
  · exact funext fun a => Fin.ext (by
      have ho := o.isLt
      match a with
      | ⟨0, _⟩ => show 0 + 0 = 0; omega
      | ⟨1, _⟩ => show o.val % 64 = o.val; omega)

/-- Layer 1 of the first weighted sum at node `n`, feature `o`: the row of the propagated features against row `o` of
    the layer's weight matrix (sliced out of the stack, reshaped and transposed), plus the layer's bias at `o`. -/
theorem layer_sd1 (x0 : (⟨S100000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S3x64, .f32⟩ : BufTy).Contents (Elt Ideal))
    (n : Fin 100000) (o : Fin 64) :
    val_main_v120 (F := Ideal) x0 x1 x2 x3 (ix2 n o)
      = Cert.Mix.proj (val_main_v98 (F := Ideal) x0 x1) x2 x3 (1 : Fin 3) n o := by
  rw [val_main_v120_apply, val_main_v115_apply, val_main_v119_apply, val_main_v118_apply, val_main_v117_apply,
    val_main_v116_apply]
  simp only [val_main_v114_apply, val_main_v113_apply, val_main_v112_apply]
  unfold Cert.Mix.proj
  refine congrArg₂ (· + ·) (Finset.sum_congr rfl fun k _ => congrArg₂ (· * ·) (congrArg _ ?_) (congrArg _ ?_)) (congrArg _ ?_)
  · exact funext fun a => Fin.ext (by
      match a with
      | ⟨0, _⟩ => rfl
      | ⟨1, _⟩ => rfl)
  · exact funext fun a => Fin.ext (by
      have ho := o.isLt; have hk := k.isLt
      match a with
      | ⟨0, _⟩ => show 1 + 0 = 1; omega
      | ⟨1, _⟩ => show (o.val * 64 + k.val) / 64 % 64 = o.val; omega
      | ⟨2, _⟩ => show (o.val * 64 + k.val) % 64 = k.val; omega)
  · exact funext fun a => Fin.ext (by
      have ho := o.isLt
      match a with
      | ⟨0, _⟩ => show 1 + 0 = 1; omega
      | ⟨1, _⟩ => show o.val % 64 = o.val; omega)

/-- Layer 2 of the first weighted sum at node `n`, feature `o`: the row of the propagated features against row `o` of
    the layer's weight matrix (sliced out of the stack, reshaped and transposed), plus the layer's bias at `o`. -/
theorem layer_sd2 (x0 : (⟨S100000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S3x64, .f32⟩ : BufTy).Contents (Elt Ideal))
    (n : Fin 100000) (o : Fin 64) :
    val_main_v170 (F := Ideal) x0 x1 x2 x3 (ix2 n o)
      = Cert.Mix.proj (val_main_v148 (F := Ideal) x0 x1) x2 x3 (2 : Fin 3) n o := by
  rw [val_main_v170_apply, val_main_v165_apply, val_main_v169_apply, val_main_v168_apply, val_main_v167_apply,
    val_main_v166_apply]
  simp only [val_main_v164_apply, val_main_v163_apply, val_main_v162_apply]
  unfold Cert.Mix.proj
  refine congrArg₂ (· + ·) (Finset.sum_congr rfl fun k _ => congrArg₂ (· * ·) (congrArg _ ?_) (congrArg _ ?_)) (congrArg _ ?_)
  · exact funext fun a => Fin.ext (by
      match a with
      | ⟨0, _⟩ => rfl
      | ⟨1, _⟩ => rfl)
  · exact funext fun a => Fin.ext (by
      have ho := o.isLt; have hk := k.isLt
      match a with
      | ⟨0, _⟩ => show 2 + 0 = 2; omega
      | ⟨1, _⟩ => show (o.val * 64 + k.val) / 64 % 64 = o.val; omega
      | ⟨2, _⟩ => show (o.val * 64 + k.val) % 64 = k.val; omega)
  · exact funext fun a => Fin.ext (by
      have ho := o.isLt
      match a with
      | ⟨0, _⟩ => show 2 + 0 = 2; omega
      | ⟨1, _⟩ => show o.val % 64 = o.val; omega)

/-- Layer 0 of the second weighted sum at node `n`, feature `o`: the row of the propagated features against row `o` of
    the layer's weight matrix (sliced out of the stack, reshaped and transposed), plus the layer's bias at `o`. -/
theorem layer_ds0 (x0 : (⟨S100000x64, .f32⟩ : BufTy).Contents (Elt Ideal)) (x1 : (⟨S2x1600000, .i32⟩ : BufTy).Contents (Elt Ideal))
    (x4 : (⟨S3x64x64, .f32⟩ : BufTy).Contents (Elt Ideal)) (x5 : (⟨S3x64, .f32⟩ : BufTy).Contents (Elt Ideal))
    (n : Fin 100000) (o : Fin 64) :
    val_main_v85 (F := Ideal) x0 x1 x4 x5 (ix2 n o)
      = Cert.Mix.proj (val_main_v67 (F := Ideal) x0 x1) x4 x5 (0 : Fin 3) n o := by
  rw [val_main_v85_apply, val_main_v80_apply, val_main_v84_apply, val_main_v83_apply, val_main_v82_apply,
    val_main_v81_apply]
  simp only [val_main_v79_apply, val_main_v78_apply, val_main_v77_apply]
  unfold Cert.Mix.proj
  refine congrArg₂ (· + ·) (Finset.sum_congr rfl fun k _ => congrArg₂ (· * ·) (congrArg _ ?_) (congrArg _ ?_)) (congrArg _ ?_)
  · exact funext fun a => Fin.ext (by
      match a with
      | ⟨0, _⟩ => rfl
      | ⟨1, _⟩ => rfl)
  · exact funext fun a => Fin.ext (by
      have ho := o.isLt; have hk := k.isLt
      match a with
      | ⟨0, _⟩ => show 0 + 0 = 0; omega
      | ⟨1, _⟩ => show (o.val * 64 + k.val) / 64 % 64 = o.val; omega
      | ⟨2, _⟩ => show (o.val * 64 + k.val) % 64 = k.val; omega)
  · exact funext fun a => Fin.ext (by
      have ho := o.isLt
      match a with
      | ⟨0, _⟩ => show 0 + 0 = 0; omega
      | ⟨1, _⟩ => show o.val % 64 = o.val; omega)

/-- Layer 1 of the second weighted sum at node `n`, feature `o`: the row of the propagated features against row `o` of
    the layer's weight matrix (sliced out of the stack, reshaped and transposed), plus the layer's bias at `o`. -/
theorem layer_ds1 (x0 : (⟨S100000x64, .f32⟩ : BufTy).Contents (Elt Ideal)) (x1 : (⟨S2x1600000, .i32⟩ : BufTy).Contents (Elt Ideal))
    (x4 : (⟨S3x64x64, .f32⟩ : BufTy).Contents (Elt Ideal)) (x5 : (⟨S3x64, .f32⟩ : BufTy).Contents (Elt Ideal))
    (n : Fin 100000) (o : Fin 64) :
    val_main_v132 (F := Ideal) x0 x1 x4 x5 (ix2 n o)
      = Cert.Mix.proj (val_main_v111 (F := Ideal) x0 x1) x4 x5 (1 : Fin 3) n o := by
  rw [val_main_v132_apply, val_main_v127_apply, val_main_v131_apply, val_main_v130_apply, val_main_v129_apply,
    val_main_v128_apply]
  simp only [val_main_v126_apply, val_main_v125_apply, val_main_v124_apply]
  unfold Cert.Mix.proj
  refine congrArg₂ (· + ·) (Finset.sum_congr rfl fun k _ => congrArg₂ (· * ·) (congrArg _ ?_) (congrArg _ ?_)) (congrArg _ ?_)
  · exact funext fun a => Fin.ext (by
      match a with
      | ⟨0, _⟩ => rfl
      | ⟨1, _⟩ => rfl)
  · exact funext fun a => Fin.ext (by
      have ho := o.isLt; have hk := k.isLt
      match a with
      | ⟨0, _⟩ => show 1 + 0 = 1; omega
      | ⟨1, _⟩ => show (o.val * 64 + k.val) / 64 % 64 = o.val; omega
      | ⟨2, _⟩ => show (o.val * 64 + k.val) % 64 = k.val; omega)
  · exact funext fun a => Fin.ext (by
      have ho := o.isLt
      match a with
      | ⟨0, _⟩ => show 1 + 0 = 1; omega
      | ⟨1, _⟩ => show o.val % 64 = o.val; omega)

/-- Layer 2 of the second weighted sum at node `n`, feature `o`: the row of the propagated features against row `o` of
    the layer's weight matrix (sliced out of the stack, reshaped and transposed), plus the layer's bias at `o`. -/
theorem layer_ds2 (x0 : (⟨S100000x64, .f32⟩ : BufTy).Contents (Elt Ideal)) (x1 : (⟨S2x1600000, .i32⟩ : BufTy).Contents (Elt Ideal))
    (x4 : (⟨S3x64x64, .f32⟩ : BufTy).Contents (Elt Ideal)) (x5 : (⟨S3x64, .f32⟩ : BufTy).Contents (Elt Ideal))
    (n : Fin 100000) (o : Fin 64) :
    val_main_v182 (F := Ideal) x0 x1 x4 x5 (ix2 n o)
      = Cert.Mix.proj (val_main_v161 (F := Ideal) x0 x1) x4 x5 (2 : Fin 3) n o := by
  rw [val_main_v182_apply, val_main_v177_apply, val_main_v181_apply, val_main_v180_apply, val_main_v179_apply,
    val_main_v178_apply]
  simp only [val_main_v176_apply, val_main_v175_apply, val_main_v174_apply]
  unfold Cert.Mix.proj
  refine congrArg₂ (· + ·) (Finset.sum_congr rfl fun k _ => congrArg₂ (· * ·) (congrArg _ ?_) (congrArg _ ?_)) (congrArg _ ?_)
  · exact funext fun a => Fin.ext (by
      match a with
      | ⟨0, _⟩ => rfl
      | ⟨1, _⟩ => rfl)
  · exact funext fun a => Fin.ext (by
      have ho := o.isLt; have hk := k.isLt
      match a with
      | ⟨0, _⟩ => show 2 + 0 = 2; omega
      | ⟨1, _⟩ => show (o.val * 64 + k.val) / 64 % 64 = o.val; omega
      | ⟨2, _⟩ => show (o.val * 64 + k.val) % 64 = k.val; omega)
  · exact funext fun a => Fin.ext (by
      have ho := o.isLt
      match a with
      | ⟨0, _⟩ => show 2 + 0 = 2; omega
      | ⟨1, _⟩ => show o.val % 64 = o.val; omega)

/-! ## The mix -/

/-- The reference's result at node `n`, feature `o` is the mix of the specification over its own six propagated
    feature arrays and the four weight and bias arguments. -/
theorem result_at (x0 : (⟨S100000x64, .f32⟩ : BufTy).Contents (Elt Ideal)) (x1 : (⟨S2x1600000, .i32⟩ : BufTy).Contents (Elt Ideal))
    (x2 : (⟨S3x64x64, .f32⟩ : BufTy).Contents (Elt Ideal)) (x3 : (⟨S3x64, .f32⟩ : BufTy).Contents (Elt Ideal))
    (x4 : (⟨S3x64x64, .f32⟩ : BufTy).Contents (Elt Ideal)) (x5 : (⟨S3x64, .f32⟩ : BufTy).Contents (Elt Ideal))
    (n : Fin 100000) (o : Fin 64) :
    val_main_v190 (F := Ideal) x0 x1 x2 x3 x4 x5 (ix2 n o)
      = Cert.Mix.mix (val_main_v54 (F := Ideal) x0 x1) (val_main_v98 (F := Ideal) x0 x1) (val_main_v148 (F := Ideal) x0 x1)
          (val_main_v67 (F := Ideal) x0 x1) (val_main_v111 (F := Ideal) x0 x1) (val_main_v161 (F := Ideal) x0 x1)
          x2 x3 x4 x5 n o := by
  rw [val_main_v190_apply, val_main_v187_apply, val_main_v189_apply, val_main_v186_apply, val_main_cst_37_apply,
    val_main_v188_apply, val_main_cst_38_apply,
    val_main_v173_apply, val_main_v172_apply, val_main_v171_apply, val_main_cst_35_apply,
    val_main_v123_apply, val_main_v122_apply, val_main_v121_apply, val_main_cst_27_apply,
    val_main_v185_apply, val_main_v184_apply, val_main_v183_apply, val_main_cst_36_apply,
    val_main_v135_apply, val_main_v134_apply, val_main_v133_apply, val_main_cst_28_apply,
    layer_sd0, layer_sd1, layer_sd2, layer_ds0, layer_ds1, layer_ds2]
  rfl

end Cert.ReferenceIdeal.RefValue

end
-- ==== Proof.Bridge.lean ====
/-
  The two programs compute one function.

  The kernel's program ends with its result array at the whole-array function of the two stacks, the weights and the
  biases it staged; the stacks are the reference's six propagated feature arrays laid in layers, so layer i of a stack
  at (n, k) is the i-th array at (n, k), and the whole-array function becomes the specification's mix taken the long
  way round (from zero, the first layer times one), which is the mix.  The reference's result is that mix, index by
  index.  Nothing here needs the inputs to be finite: the only laws used are 0 + a = a and a * 1 = a.
-/
import proofs.«108343_j62723702391592_1_alg».proof.Proof.KernelIdealValue
import proofs.«108343_j62723702391592_1_alg».proof.Proof.KernelIdealStacks
import proofs.«108343_j62723702391592_1_alg».proof.Proof.RefValue

set_option maxRecDepth 16384

noncomputable section

namespace Cert.Proof.Bridge

open Idealize.ShloMosaic Idealize.ShloMosaic.TcCoe Idealize.ShloMosaic.ValueIdx Idealize.SL.Sem
open Cert.KernelIdeal.Hand

/-- The whole-array function over two stacks of three arrays is the mix of the six arrays. -/
theorem wholeMix_of_stacks (y0 y1 y2 t0 t1 t2 : Cert.Mix.Nodes.Idx → EReal) (W : Cert.Mix.Weights.Idx → EReal)
    (b : Cert.Mix.Biases.Idx → EReal) (W' : Cert.Mix.Weights.Idx → EReal) (b' : Cert.Mix.Biases.Idx → EReal) :
    wholeMix (stack3 (F := Ideal) y0 y1 y2) (stack3 (F := Ideal) t0 t1 t2) W b W' b'
      = fun i => Cert.Mix.mix y0 y1 y2 t0 t1 t2 W b W' b' (i 0) (i 1) := by
  funext i
  obtain ⟨n, o, rfl⟩ : ∃ (n : Fin 100000) (o : Fin 64), i = ix2 n o := ⟨i 0, i 1, eq_ix2 i⟩
  show wholeMixAt (stack3 (F := Ideal) y0 y1 y2) (stack3 (F := Ideal) t0 t1 t2) W b W' b' n o
    = Cert.Mix.mix y0 y1 y2 t0 t1 t2 W b W' b' n o
  unfold wholeMixAt
  simp only [stack3_layer0, stack3_layer1, stack3_layer2]
  exact Cert.Mix.mixFromZero_eq y0 y1 y2 t0 t1 t2 W b W' b' n o

/-- From memories that agree on the six arguments, the reference's result is the array the kernel's program ends
    with. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v190 m' c
      = wholeMix (atEntry m c Cert.KernelIdeal.main_v123) (atEntry m c Cert.KernelIdeal.main_v127)
          (atEntry m c Cert.KernelIdeal.main_arg2) (atEntry m c Cert.KernelIdeal.main_arg3)
          (atEntry m c Cert.KernelIdeal.main_arg4) (atEntry m c Cert.KernelIdeal.main_arg5) := by
  obtain ⟨h0, h1, h2, h3, h4, h5⟩ := h
  rw [Cert.ReferenceIdeal.ReadP.val_main_v190_eq, h0, h1, h2, h3, h4, h5,
    stackY_at_entry, stackYt_at_entry, atEntry_arg2, atEntry_arg3, atEntry_arg4, atEntry_arg5, wholeMix_of_stacks]
  funext i
  obtain ⟨n, o, rfl⟩ : ∃ (n : Fin 100000) (o : Fin 64), i = ix2 n o := ⟨i 0, i 1, eq_ix2 i⟩
  exact Cert.ReferenceIdeal.RefValue.result_at _ _ _ _ _ _ n o

end Cert.Proof.Bridge

end
-- ==== Proof.lean ====
/-
  The certificate of a graph layer that mixes three hops of degree-normalised propagation.

  Both programs first compute, on the host, six propagated feature arrays y_0, y_1, y_2 and yt_0, yt_1, yt_2 from the
  node features and the edge list.  The reference then forms on whole arrays
      1/2 * ((P_0 + P_1 * 1/2) + P_2 * 1/4) + 1/2 * (the same over the yt_i and the second weights and biases),
  P_i = y_i W_i^T + b_i.  The kernel's program stacks the y_i and the yt_i and runs one region over twenty blocks of
  5000 nodes; its body computes the same expression block by block, starting each sum from a zero block and
  multiplying the first layer by one, with the matrix products' operands passed through a narrower float format.
  On the extended reals a change of format is the identity, a product into a zero accumulator is the plain sum, and
  0 + a * 1 = a, so the two results are one function of the arguments.

  The frames: each kernel program is its host line followed by the region; the region's body reads its six input
  blocks, stores one block, and leaves the inputs as it found them, so the run terminates without a fault and the
  argument arrays end as launched (Proof/KernelEntry, KernelBody, KernelRun and their idealized twins).  The
  reference is a line of host operations.  The ideal pass rewrote nothing, so the second program is the first read
  on the extended reals.
-/
import proofs.«108343_j62723702391592_1_alg».proof.Defs
import proofs.«108343_j62723702391592_1_alg».proof.Proof.Gen.Kernel
import proofs.«108343_j62723702391592_1_alg».proof.Proof.Gen.KernelIdeal
import proofs.«108343_j62723702391592_1_alg».proof.Proof.Gen.ReferenceIdeal
import proofs.«108343_j62723702391592_1_alg».proof.Proof.Gen.Pre_finite_inputs
import proofs.«108343_j62723702391592_1_alg».proof.Proof.KernelRun
import proofs.«108343_j62723702391592_1_alg».proof.Proof.Bridge

noncomputable section

namespace Cert.Proof

open Idealize.ShloMosaic Idealize.ShloMosaic.TcCoe Idealize.SL.Sem

/-- The word-level kernel program terminates, faults nowhere and keeps its arguments. -/
theorem frame_kernel : Cert.frame_Kernel := fun m ρ _ => Cert.Kernel.Hand.frame m ρ

/-- So does its reading on the extended reals. -/
theorem frame_kernelIdeal : Cert.frame_KernelIdeal := fun m ρ _ => Cert.KernelIdeal.Hand.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs run, and end with equal results. -/
theorem algebraic : Cert.algebraic_KernelIdeal_ReferenceIdeal := by
  intro m ρ m' ρ' _ hagree
  refine ⟨_, Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  exact Cert.Proof.Bridge.results_agree m m' c (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
